-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x32 .f32) (main_arg9 : FVec F S1 .f32) (main_v33 : IVec S_ 1) : IVec S_ 1 :=
  let main_v34 : FVec F S1x32 .f32 := Host.absf main_arg8
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S32x64 .f32) (main_arg6 : FVec F S32 .f32) (main_arg7 : FVec F S32x64 .f32) (main_arg8 : FVec F S1x32 .f32) (main_arg9 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : IVec S2x1600000 32) (main_arg2 : FVec F S64x64 .f32) (main_arg3 : FVec F S64 .f32) (main_arg4 : FVec F S64x64 .f32) (main_arg5 : FVec F S32x64 .f32) (main_arg6 : FVec F S32 .f32) (main_arg7 : FVec F S32x64 .f32) (main_arg8 : FVec F S1x32 .f32) (main_arg9 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S64x32 : Shape := ⟨2, ![64, 32]⟩
abbrev S1x64 : Shape := ⟨2, ![1, 64]⟩
abbrev S50000x32 : Shape := ⟨2, ![50000, 32]⟩
abbrev S10000x64 : Shape := ⟨2, ![10000, 64]⟩
abbrev S10000x32 : Shape := ⟨2, ![10000, 32]⟩
abbrev S1600000x32 : Shape := ⟨2, ![1600000, 32]⟩
abbrev S32x1 : Shape := ⟨2, ![32, 1]⟩
abbrev S1x1 : Shape := ⟨2, ![1, 1]⟩
abbrev S10000x1 : Shape := ⟨2, ![10000, 1]⟩

abbrev nBuf : Space → Nat
  | .hbm => 76
  | .vmem => 22
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x32, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .bf16⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1600000x64, .bf16⟩
  | .hbm, ⟨37, _⟩ => ⟨S1600000x64, .f32⟩
  | .hbm, ⟨38, _⟩ => ⟨S_, .f32⟩
  | .hbm, ⟨39, _⟩ => ⟨S50000x64, .f32⟩
  | .hbm, ⟨40, _⟩ => ⟨S1600000x1, .i32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S64x64, .f32⟩
  | .hbm, ⟨45, _⟩ => ⟨S64x64, .bf16⟩
  | .hbm, ⟨46, _⟩ => ⟨S64x64, .f32⟩
  | .hbm, ⟨47, _⟩ => ⟨S64x64, .bf16⟩
  | .hbm, ⟨48, _⟩ => ⟨S64x32, .f32⟩
  | .hbm, ⟨49, _⟩ => ⟨S64x32, .bf16⟩
  | .hbm, ⟨50, _⟩ => ⟨S1x64, .f32⟩
  | .hbm, ⟨51, _⟩ => ⟨S50000x64, .f32⟩
  | .hbm, ⟨52, _⟩ => ⟨S50000x32, .bf16⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .bf16⟩
  | .hbm, ⟨62, _⟩ => ⟨S1600000x32, .f32⟩
  | .hbm, ⟨63, _⟩ => ⟨S_, .f32⟩
  | .hbm, ⟨64, _⟩ => ⟨S50000x32, .f32⟩
  | .hbm, ⟨65, _⟩ => ⟨S1600000x1, .i32⟩
  | .hbm, ⟨66, _⟩ => ⟨S50000x32, .f32⟩
  | .hbm, ⟨67, _⟩ => ⟨S50000x32, .f32⟩
  | .hbm, ⟨68, _⟩ => ⟨S50000x32, .f32⟩
  | .hbm, ⟨69, _⟩ => ⟨S64x32, .f32⟩
  | .hbm, ⟨70, _⟩ => ⟨S64x32, .bf16⟩
  | .hbm, ⟨71, _⟩ => ⟨S1x32, .f32⟩
  | .hbm, ⟨72, _⟩ => ⟨S32x1, .f32⟩
  | .hbm, ⟨73, _⟩ => ⟨S32x1, .bf16⟩
  | .hbm, ⟨74, _⟩ => ⟨S1x1, .f32⟩
  | .hbm, ⟨75, _⟩ => ⟨S50000x1, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .bf16⟩
  | .local _ .vmem, ⟨5, _⟩ => ⟨S1x64, .f32⟩
  | .local _ .vmem, ⟨6, _⟩ => ⟨S64x64, .bf16⟩
  | .local _ .vmem, ⟨7, _⟩ => ⟨S64x32, .bf16⟩
  | .local _ .vmem, ⟨8, _⟩ => ⟨S10000x64, .f32⟩
  | .local _ .vmem, ⟨9, _⟩ => ⟨S10000x64, .f32⟩
  | .local _ .vmem, ⟨10, _⟩ => ⟨S10000x32, .bf16⟩
  | .local _ .vmem, ⟨11, _⟩ => ⟨S10000x32, .bf16⟩
  | .local _ .vmem, ⟨12, _⟩ => ⟨S10000x32, .f32⟩
  | .local _ .vmem, ⟨13, _⟩ => ⟨S10000x32, .f32⟩
  | .local _ .vmem, ⟨14, _⟩ => ⟨S10000x64, .f32⟩
  | .local _ .vmem, ⟨15, _⟩ => ⟨S10000x64, .f32⟩
  | .local _ .vmem, ⟨16, _⟩ => ⟨S64x32, .bf16⟩
  | .local _ .vmem, ⟨17, _⟩ => ⟨S1x32, .f32⟩
  | .local _ .vmem, ⟨18, _⟩ => ⟨S32x1, .bf16⟩
  | .local _ .vmem, ⟨19, _⟩ => ⟨S1x1, .f32⟩
  | .local _ .vmem, ⟨20, _⟩ => ⟨S10000x1, .f32⟩
  | .local _ .vmem, ⟨21, _⟩ => ⟨S10000x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34_0 : Ref sig .tc := ⟨.hbm, 51, rfl⟩
abbrev main_v34_1 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bitsLt_bf16_f32 : FTy.bits .bf16 < FTy.bits .f32
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  transposes_S32x64_S64x32_1_0 : S32x64.Transposes [1, 0] S64x32
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S10000x32_S10000x32_0_0 : ∀ a, (![0, 0] : Fin 2 → Nat) a + S10000x32.size a ≤ S10000x32.size a
  h_S10000x32 : 0 < S10000x32.numel
  packedbf16_S10000x32_S10000x32_0_0 : (Rect.unit (s := S10000x32) ![0, 0] S10000x32.size inb_S10000x32_S10000x32_0_0).PackedRows (EltTy.packing .bf16)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  shapeCasts_S32_S1x32 : S32.ShapeCasts S1x32
  transposes_S1x32_S32x1_1_0 : S1x32.Transposes [1, 0] S32x1
  shapeCasts_S1_S1x1 : S1.ShapeCasts S1x1
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S10000x64_S64x64_S10000x64_1_0_0_1_n_n_wf : DotDims.WF S10000x64 S64x64 S10000x64 [1] [0] [0] [1] [] []
  dot_S10000x64_S64x32_S10000x32_1_0_0_1_n_n_wf : DotDims.WF S10000x64 S64x32 S10000x32 [1] [0] [0] [1] [] []
  gather_S50000x32_S1600000x1_S1600000x32_1_0_n_n_0_1_132_wf : GatherDims.WF S50000x32 S1600000x1 S1600000x32 [1] [0] [] [0] [] 1 ![1, 32]
  scatter_S50000x32_S1600000x1_S1600000x32_1_0_0_1_wf : ScatterDims.WF S50000x32 S1600000x1 S1600000x32 [1] [0] [0] 1
  dot_S10000x32_S32x1_S10000x1_1_0_0_1_n_n_wf : DotDims.WF S10000x32 S32x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .bf16 = 32 ∨ (Rect.block (s := S64x32) S64x32.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x64.size a ≤ S50000x64.size a
  hwx0_6 : ∀ i : grid0.Coords, EltTy.bits .f32 = 32 ∨ (Rect.block (s := S50000x64) S10000x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x32.size a ≤ S50000x32.size a
  hwx0_7 : ∀ i : grid0.Coords, EltTy.bits .bf16 = 32 ∨ (Rect.block (s := S50000x32) S10000x32.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S50000x32.size a
  hwx1_0 : ∀ i : grid1.Coords, EltTy.bits .f32 = 32 ∨ (Rect.block (s := S50000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .f32 = 32 ∨ (Rect.block (s := S50000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .bf16 = 32 ∨ (Rect.block (s := S64x32) S64x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1.size a ≤ S32x1.size a
  hwx1_4 : ∀ i : grid1.Coords, EltTy.bits .bf16 = 32 ∨ (Rect.block (s := S32x1) S32x1.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x1.size a ≤ S50000x1.size a
  hwx1_6 : ∀ i : grid1.Coords, EltTy.bits .f32 = 32 ∨ (Rect.block (s := S50000x1) S10000x1.size (cc1_transform_6 i) (hinb1_6 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S50000x32_S1600000x1_S1600000x32_1_0_n_n_0_1_132 : GatherDims S50000x32 S1600000x1 S1600000x32 where
  offsetDims := [1]
  collapsedSliceDims := [0]
  operandBatchingDims := []
  startIndicesBatchingDims := []
  startIndexMap := [0]
  indexVectorDim := 1
  sliceSizes := ![1, 32]
  wf := gather_S50000x32_S1600000x1_S1600000x32_1_0_n_n_0_1_132_wf
def scatter_S50000x32_S1600000x1_S1600000x32_1_0_0_1 : ScatterDims S50000x32 S1600000x1 S1600000x32 where
  updateWindowDims := [1]
  insertedWindowDims := [0]
  scatterDimsToOperandDims := [0]
  indexVectorDim := 1
  wf := scatter_S50000x32_S1600000x1_S1600000x32_1_0_0_1_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf

abbrev win0_0 : Pipeline.Window sig grid0 :=
  Pipeline.Window.ofSpec (Memref.whole main_v26) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34_0) S10000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v34_1) S10000x32.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v47) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34_0) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v52) S32x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S10000x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S1x64 : Shape := ⟨2, ![1, 64]⟩
abbrev S64x32 : Shape := ⟨2, ![64, 32]⟩
abbrev S50000x32 : Shape := ⟨2, ![50000, 32]⟩
abbrev S32x1 : Shape := ⟨2, ![32, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x32, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S50000x64, .f32⟩
  | .hbm, ⟨25, _⟩ => ⟨S1600000x1, .i32⟩
  | .hbm, ⟨26, _⟩ => ⟨S50000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S64x64, .f32⟩
  | .hbm, ⟨40, _⟩ => ⟨S50000x64, .f32⟩
  | .hbm, ⟨41, _⟩ => ⟨S1x64, .f32⟩
  | .hbm, ⟨42, _⟩ => ⟨S50000x64, .f32⟩
  | .hbm, ⟨43, _⟩ => ⟨S50000x64, .f32⟩
  | .hbm, ⟨44, _⟩ => ⟨S64x64, .f32⟩
  | .hbm, ⟨45, _⟩ => ⟨S50000x64, .f32⟩
  | .hbm, ⟨46, _⟩ => ⟨S50000x64, .f32⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S1x1600000, .i32⟩
  | .hbm, ⟨51, _⟩ => ⟨S1600000, .i32⟩
  | .hbm, ⟨52, _⟩ => ⟨S1x1600000, .i32⟩
  | .hbm, ⟨53, _⟩ => ⟨S1600000, .i32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S50000x64, .f32⟩
  | .hbm, ⟨65, _⟩ => ⟨S1600000x1, .i32⟩
  | .hbm, ⟨66, _⟩ => ⟨S50000x64, .f32⟩
  | .hbm, ⟨67, _⟩ => ⟨S_, .f32⟩
  | .hbm, ⟨68, _⟩ => ⟨S1600000, .f32⟩
  | .hbm, ⟨69, _⟩ => ⟨S_, .f32⟩
  | .hbm, ⟨70, _⟩ => ⟨S50000, .f32⟩
  | .hbm, ⟨71, _⟩ => ⟨S1600000x1, .i32⟩
  | .hbm, ⟨72, _⟩ => ⟨S50000, .f32⟩
  | .hbm, ⟨73, _⟩ => ⟨S_, .f32⟩
  | .hbm, ⟨74, _⟩ => ⟨S50000, .f32⟩
  | .hbm, ⟨75, _⟩ => ⟨S50000, .f32⟩
  | .hbm, ⟨76, _⟩ => ⟨S50000x1, .f32⟩
  | .hbm, ⟨77, _⟩ => ⟨S50000x64, .f32⟩
  | .hbm, ⟨78, _⟩ => ⟨S50000x64, .f32⟩
  | .hbm, ⟨79, _⟩ => ⟨S64x32, .f32⟩
  | .hbm, ⟨80, _⟩ => ⟨S50000x32, .f32⟩
  | .hbm, ⟨81, _⟩ => ⟨S1x32, .f32⟩
  | .hbm, ⟨82, _⟩ => ⟨S50000x32, .f32⟩
  | .hbm, ⟨83, _⟩ => ⟨S50000x32, .f32⟩
  | .hbm, ⟨84, _⟩ => ⟨S64x32, .f32⟩
  | .hbm, ⟨85, _⟩ => ⟨S50000x32, .f32⟩
  | .hbm, ⟨86, _⟩ => ⟨S50000x32, .f32⟩
  | .hbm, ⟨87, _⟩ => ⟨S_, .f32⟩
  | .hbm, ⟨88, _⟩ => ⟨S50000x32, .f32⟩
  | .hbm, ⟨89, _⟩ => ⟨S50000x32, .f32⟩
  | .hbm, ⟨90, _⟩ => ⟨S32x1, .f32⟩
  | .hbm, ⟨91, _⟩ => ⟨S50000x1, .f32⟩
  | .hbm, ⟨92, _⟩ => ⟨S1x1, .f32⟩
  | .hbm, ⟨93, _⟩ => ⟨S50000x1, .f32⟩
  | .hbm, ⟨94, _⟩ => ⟨S50000x1, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_4 : Ref sig .tc := ⟨.hbm, 54, rfl⟩
abbrev main_v36 : Ref sig .tc := ⟨.hbm, 55, rfl⟩
abbrev main_v37 : Ref sig .tc := ⟨.hbm, 56, rfl⟩
abbrev main_c_5 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call1_cst : Ref sig .tc := ⟨.hbm, 87, rfl⟩
abbrev main_call1_v0 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  transposes_S32x64_S64x32_1_0 : S32x64.Transposes [1, 0] S64x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  transposes_S1x32_S32x1_1_0 : S1x32.Transposes [1, 0] S32x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []
  dot_S50000x32_S32x1_S50000x1_1_0_0_1_n_n_wf : DotDims.WF S50000x32 S32x1 S50000x1 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def dot_S50000x32_S32x1_S50000x1_1_0_0_1_n_n : DotDims S50000x32 S32x1 S50000x1 where
  lhsContracting := [1]
  rhsContracting := [0]
  lhsNonContracting := [0]
  rhsNonContracting := [1]
  lhsBatch := []
  rhsBatch := []
  wf := dot_S50000x32_S32x1_S50000x1_1_0_0_1_n_n_wf

class Facts : Prop extends Facts₀ where

variable [Facts]
-- ==== Proof.KRun.lean ====
/-
  The idealized kernel's run, with its result named.

  Every weakly fair execution of the program terminates without a fault, and in the final memory the result
  buffer holds what the run's fold of buffer contents leaves there: the second region's output array after the
  last write-back (the contents at the program's last boundary, `Gen.W4`), while the ten argument arrays are as
  launched. This is the launch of the program's four segments — host operations, first region, host operations,
  second region — read against the final state at the result buffer as well as at the arguments.
-/
import proofs.«166322_j5231270167342_2_alg».proof.Proof.KernelIdealFrameP

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with the result buffer at the last boundary's contents and the arguments unchanged. -/
theorem run_out : θ_run defs (onTc (τ := τ) (main (F := F))) ⟨m, fun _ => 0, ρ⟩ (fun r => ∀ c : Dev nD,
      r.2.mem ((c.tc : Thread nD τ).loc main_v54) = W4 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v54 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.KRun

end
-- ==== Proof.KHost.lean ====
/-
  What the two regions of the idealized kernel find in their input arrays, as functions of the argument arrays.

  Before the first region the host operations compute, from the features `x` and the edge list: the neighbour
  SUM (gather the source rows, scatter-add them at the destination rows), the in-degree clipped below at one,
  its reciprocal as a column, and the neighbour mean as the product of the sum with that column broadcast along
  the rows; the weight matrices transposed, and the bias as a 1 × 64 row. Between the regions they compute the
  same mean of the first region's 32-wide projected output, and the second layer's transposed weights and bias
  rows. Each value is stated through the reference program's own stages wherever the two programs apply the
  same operations to the same arguments (a change of float format is the identity on the extended reals).
-/
import proofs.«166322_j5231270167342_2_alg».proof.Proof.KernelIdealFrameP
import proofs.«166322_j5231270167342_2_alg».proof.Proof.Gen.ReferenceIdeal.Read
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem Idealize.ShloMosaic.StableHlo
open Cert.ReferenceIdeal.Read (val_main_v13 val_main_v18 val_main_v19 val_main_v23 val_main_v28 val_main_v55 val_main_v60 val_main_v64
  val_main_v41 val_main_v44 val_main_v33 val_main_v35)

variable [Cert.ReferenceIdeal.Facts]
variable (m : (ℓ : Loc nD τ sig) → Buf (Elt Ideal) ℓ) (ρ : Dev nD → PrngReg)

/-- The reciprocal of the clipped in-degree, as a 50000 × 1 column. -/
def invCol (x1 : (⟨S2x1600000, .i32⟩ : BufTy).Contents (Elt Ideal)) : (⟨S50000x1, .f32⟩ : BufTy).Contents (Elt Ideal) :=
  shapeCast S50000x1 (Host.divf (F := Ideal) (φ := .f32) (val_main_v18 (F := Ideal)) (val_main_v19 (F := Ideal) x1)) shapeCasts_S50000_S50000x1

/-- The first region finds the features where they were launched. -/
theorem V1_arg0 (c : Dev nD) : V1 (F := Ideal) m ρ c main_arg0 = m ((c.tc : Thread nD τ).loc main_arg0) := by
  show StableHlo.after hostOps0 (W0 m ρ c) (Proc.devRef .tc main_arg0) = _
  after_results

/-- The first region's neighbour mean: the neighbour sum times the reciprocal in-degree column, broadcast. -/
theorem V1_v26 (c : Dev nD) : V1 (F := Ideal) m ρ c main_v26
    = mulf (F := Ideal) (φ := .f32) (val_main_v13 (F := Ideal) (m ((c.tc : Thread nD τ).loc main_arg0)) (m ((c.tc : Thread nD τ).loc main_arg1)))
        (broadcastInDim S50000x64 ![0, 1] bcast_S50000x1_S50000x64_0_1 (invCol (m ((c.tc : Thread nD τ).loc main_arg1)))) := by
  show StableHlo.after hostOps0 (W0 m ρ c) (Proc.devRef .tc main_v26) = _
  after_results_simp
  rfl

theorem V1_v28 (c : Dev nD) : V1 (F := Ideal) m ρ c main_v28 = val_main_v23 (F := Ideal) (m ((c.tc : Thread nD τ).loc main_arg2)) := by
  show StableHlo.after hostOps0 (W0 m ρ c) (Proc.devRef .tc main_v28) = _
  after_results
  rfl

theorem V1_v33 (c : Dev nD) : V1 (F := Ideal) m ρ c main_v33
    = shapeCast S1x64 (m ((c.tc : Thread nD τ).loc main_arg3)) shapeCasts_S64_S1x64 := by
  show StableHlo.after hostOps0 (W0 m ρ c) (Proc.devRef .tc main_v33) = _
  after_results
  rfl

theorem V1_v30 (c : Dev nD) : V1 (F := Ideal) m ρ c main_v30 = val_main_v28 (F := Ideal) (m ((c.tc : Thread nD τ).loc main_arg4)) := by
  show StableHlo.after hostOps0 (W0 m ρ c) (Proc.devRef .tc main_v30) = _
  after_results
  rfl

theorem V1_v32 (c : Dev nD) : V1 (F := Ideal) m ρ c main_v32 = val_main_v55 (F := Ideal) (m ((c.tc : Thread nD τ).loc main_arg5)) := by
  show StableHlo.after hostOps0 (W0 m ρ c) (Proc.devRef .tc main_v32) = _
  after_results
  rfl

/-! ## Between the regions -/

theorem W1_v1 (c : Dev nD) : W1 (F := Ideal) m ρ c (Proc.devRef .tc main_v1) = val_main_v33 (F := Ideal) (m ((c.tc : Thread nD τ).loc main_arg1)) := by
  show StableHlo.after hostOps0 (W0 m ρ c) (Proc.devRef .tc main_v1) = _
  after_results
  rfl

theorem W1_v3 (c : Dev nD) : W1 (F := Ideal) m ρ c (Proc.devRef .tc main_v3) = val_main_v35 (F := Ideal) (m ((c.tc : Thread nD τ).loc main_arg1)) := by
  show StableHlo.after hostOps0 (W0 m ρ c) (Proc.devRef .tc main_v3) = _
  after_results
  rfl

theorem W1_v12 (c : Dev nD) : W1 (F := Ideal) m ρ c (Proc.devRef .tc main_v12) = invCol (m ((c.tc : Thread nD τ).loc main_arg1)) := by
  show StableHlo.after hostOps0 (W0 m ρ c) (Proc.devRef .tc main_v12) = _
  after_results_simp
  rfl

theorem W1_arg6 (c : Dev nD) : W1 (F := Ideal) m ρ c (Proc.devRef .tc main_arg6) = (m ((c.tc : Thread nD τ).loc main_arg6)) := by
  show StableHlo.after hostOps0 (W0 m ρ c) (Proc.devRef .tc main_arg6) = _
  after_results
theorem W1_arg7 (c : Dev nD) : W1 (F := Ideal) m ρ c (Proc.devRef .tc main_arg7) = (m ((c.tc : Thread nD τ).loc main_arg7)) := by
  show StableHlo.after hostOps0 (W0 m ρ c) (Proc.devRef .tc main_arg7) = _
  after_results
theorem W1_arg8 (c : Dev nD) : W1 (F := Ideal) m ρ c (Proc.devRef .tc main_arg8) = (m ((c.tc : Thread nD τ).loc main_arg8)) := by
  show StableHlo.after hostOps0 (W0 m ρ c) (Proc.devRef .tc main_arg8) = _
  after_results
theorem W1_arg9 (c : Dev nD) : W1 (F := Ideal) m ρ c (Proc.devRef .tc main_arg9) = (m ((c.tc : Thread nD τ).loc main_arg9)) := by
  show StableHlo.after hostOps0 (W0 m ρ c) (Proc.devRef .tc main_arg9) = _
  after_results

/-- The second region finds the first region's hidden rows where that region left them. -/
theorem V3_v34_0 (c : Dev nD) : V3 (F := Ideal) m ρ c main_v34_0 = W2 m ρ c (Proc.devRef .tc main_v34_0) := by
  show StableHlo.after hostOps1 (W2 m ρ c) (Proc.devRef .tc main_v34_0) = _
  after_results

/-- The second region's neighbour mean of the first region's projected rows `p`: gather the source rows of `p`,
    scatter-add them at the destination rows, times the reciprocal in-degree column, broadcast. -/
def agg2 (x1 : (⟨S2x1600000, .i32⟩ : BufTy).Contents (Elt Ideal)) (p : (⟨S50000x32, .bf16⟩ : BufTy).Contents (Elt Ideal)) :
    (⟨S50000x32, .f32⟩ : BufTy).Contents (Elt Ideal) :=
  mulf (F := Ideal) (φ := .f32)
    (Host.scatterAdd (F := Ideal) (φ := .f32) scatter_S50000x32_S1600000x1_S1600000x32_1_0_0_1
      (broadcastInDim S50000x32 ![] bcast_S_S50000x32 (constant (F := Ideal) S_ .f32 0x00000000#32))
      (val_main_v44 (F := Ideal) x1)
      (extf (F := Ideal) .f32 (Host.gather gather_S50000x32_S1600000x1_S1600000x32_1_0_n_n_0_1_132 p (val_main_v41 (F := Ideal) x1))
        bitsLt_bf16_f32))
    (broadcastInDim S50000x32 ![0, 1] bcast_S50000x1_S50000x32_0_1 (invCol x1))

theorem V3_v47 (c : Dev nD) : V3 (F := Ideal) m ρ c main_v47
    = agg2 (m ((c.tc : Thread nD τ).loc main_arg1)) (W2 m ρ c (Proc.devRef .tc main_v34_1)) := by
  show StableHlo.after hostOps1 (W2 m ρ c) (Proc.devRef .tc main_v47) = _
  after_results_simp
  rw [W2_of_ne m ρ c main_v3 (by decide), W2_of_ne m ρ c main_v1 (by decide), W2_of_ne m ρ c main_v12 (by decide),
    W1_v1, W1_v3, W1_v12]
  rfl

theorem V3_v49 (c : Dev nD) : V3 (F := Ideal) m ρ c main_v49 = val_main_v60 (F := Ideal) (m ((c.tc : Thread nD τ).loc main_arg7)) := by
  show StableHlo.after hostOps1 (W2 m ρ c) (Proc.devRef .tc main_v49) = _
  after_results
  rw [W2_of_ne m ρ c main_arg7 (by decide), W1_arg7]
  rfl

theorem V3_v50 (c : Dev nD) : V3 (F := Ideal) m ρ c main_v50 = shapeCast S1x32 (m ((c.tc : Thread nD τ).loc main_arg6)) Gen.shapeCasts_S32_S1x32 := by
  show StableHlo.after hostOps1 (W2 m ρ c) (Proc.devRef .tc main_v50) = _
  after_results
  rw [W2_of_ne m ρ c main_arg6 (by decide), W1_arg6]
  rfl

theorem V3_v52 (c : Dev nD) : V3 (F := Ideal) m ρ c main_v52 = val_main_v64 (F := Ideal) (m ((c.tc : Thread nD τ).loc main_arg8)) := by
  show StableHlo.after hostOps1 (W2 m ρ c) (Proc.devRef .tc main_v52) = _
  after_results
  rw [W2_of_ne m ρ c main_arg8 (by decide), W1_arg8]
  rfl

theorem V3_v53 (c : Dev nD) : V3 (F := Ideal) m ρ c main_v53 = shapeCast S1x1 (m ((c.tc : Thread nD τ).loc main_arg9)) Gen.shapeCasts_S1_S1x1 := by
  show StableHlo.after hostOps1 (W2 m ρ c) (Proc.devRef .tc main_v53) = _
  after_results
  rw [W2_of_ne m ρ c main_arg9 (by decide), W1_arg9]
  rfl

end Cert.KernelIdeal.KHost

end
-- ==== Proof.Spec.lean ====
/-
  Two stacked neighbour-mean graph layers followed by a linear read-out, as functions of arrays over the
  extended reals.

  A node's feature row is combined with the mean of its in-neighbours' rows: the mean goes through one weight
  matrix, the node's own row through another, a bias row is added, and the result is clipped below at zero.
  The three dense stages are stated here index by index, over literal extents (50000 nodes; widths 64, 32, 1):

  * `dense1`: from the neighbour mean `agg` and the features `x`, both 50000 × 64, the weights already
    transposed (`wl`, `wr` : 64 × 64, row = input channel) and the bias as a 1 × 64 row,
    entry (r, j) is max (((∑ k, agg r k · wl k j) + b 0 j) + ∑ k, x r k · wr k j) 0.
  * `proj`: a 50000 × 64 array times a 64 × 32 matrix, entry (r, j) = ∑ k, h r k · w k j.
  * `dense2`: from a 50000 × 32 array `a` (already projected), the hidden rows `h` (50000 × 64), `wr` : 64 × 32,
    the bias row `b` : 1 × 32, the read-out column `wf` : 32 × 1 and its bias `bf` : 1 × 1,
    entry (r, q) = (∑ j, max ((a r j + b 0 j) + ∑ k, h r k · wr k j) 0 · wf j q) + bf 0 q.
-/
import Idealize.ShloMosaic.PureOps.Ideal
import Idealize.ShloMosaic.Lib.ValueIdx

noncomputable section

open scoped BigOperators

namespace Cert.Sage

open Idealize.ShloMosaic Idealize.ShloMosaic.ValueIdx

abbrev SNx64 : Shape := ⟨2, ![50000, 64]⟩
abbrev SNx32 : Shape := ⟨2, ![50000, 32]⟩
abbrev SNx1 : Shape := ⟨2, ![50000, 1]⟩
abbrev S64x64 : Shape := ⟨2, ![64, 64]⟩
abbrev S64x32 : Shape := ⟨2, ![64, 32]⟩
abbrev S32x1 : Shape := ⟨2, ![32, 1]⟩
abbrev S1x64 : Shape := ⟨2, ![1, 64]⟩
abbrev S1x32 : Shape := ⟨2, ![1, 32]⟩
abbrev S1x1 : Shape := ⟨2, ![1, 1]⟩

/-- Entry (r, j) of the first dense stage. -/
def dense1At (agg x : SNx64.Idx → EReal) (wl : S64x64.Idx → EReal) (b : S1x64.Idx → EReal) (wr : S64x64.Idx → EReal)
    (r : Fin 50000) (j : Fin 64) : EReal :=
  max (((∑ k : Fin 64, agg (ix2 r k) * wl (ix2 k j)) + b (ix2 (0 : Fin 1) j)) + ∑ k : Fin 64, x (ix2 r k) * wr (ix2 k j)) 0

/-- The first dense stage as an array. -/
def dense1 (agg x : SNx64.Idx → EReal) (wl : S64x64.Idx → EReal) (b : S1x64.Idx → EReal) (wr : S64x64.Idx → EReal) :
    SNx64.Idx → EReal :=
  fun i => dense1At agg x wl b wr (i 0) (i 1)

/-- Entry (r, j) of a 50000 × 64 array times a 64 × 32 matrix. -/
def projAt (h : SNx64.Idx → EReal) (w : S64x32.Idx → EReal) (r : Fin 50000) (j : Fin 32) : EReal :=
  ∑ k : Fin 64, h (ix2 r k) * w (ix2 k j)

/-- The product as an array. -/
def proj (h : SNx64.Idx → EReal) (w : S64x32.Idx → EReal) : SNx32.Idx → EReal :=
  fun i => projAt h w (i 0) (i 1)

/-- Entry (r, j) of the second layer before the read-out: the projected mean plus the bias plus the node's own
    hidden row through `wr`, clipped below at zero. -/
def hidden2At (a : SNx32.Idx → EReal) (h : SNx64.Idx → EReal) (wr : S64x32.Idx → EReal) (b : S1x32.Idx → EReal)
    (r : Fin 50000) (j : Fin 32) : EReal :=
  max ((a (ix2 r j) + b (ix2 (0 : Fin 1) j)) + ∑ k : Fin 64, h (ix2 r k) * wr (ix2 k j)) 0

/-- Entry (r, q) of the second dense stage with its read-out. -/
def dense2At (a : SNx32.Idx → EReal) (h : SNx64.Idx → EReal) (wr : S64x32.Idx → EReal) (b : S1x32.Idx → EReal)
    (wf : S32x1.Idx → EReal) (bf : S1x1.Idx → EReal) (r : Fin 50000) (q : Fin 1) : EReal :=
  (∑ j : Fin 32, hidden2At a h wr b r j * wf (ix2 j q)) + bf (ix2 (0 : Fin 1) q)

/-- The second dense stage as an array. -/
def dense2 (a : SNx32.Idx → EReal) (h : SNx64.Idx → EReal) (wr : S64x32.Idx → EReal) (b : S1x32.Idx → EReal)
    (wf : S32x1.Idx → EReal) (bf : S1x1.Idx → EReal) : SNx1.Idx → EReal :=
  fun i => dense2At a h wr b wf bf (i 0) (i 1)

end Cert.Sage

end
-- ==== Proof.Region0.lean ====
/-
  The first region of the two-layer network: what its two output arrays hold after the run.

  The region walks the 50000 node rows in 5 blocks of 10000. At block t the body reads rows 10000·t … 10000·t + 9999
  of the neighbour means and of the features, the two 64 × 64 weight matrices, the bias row and the 64 × 32 matrix
  whole, and stores two blocks of the same rows: the hidden rows (64 wide) and their product with the 64 × 32 matrix
  (32 wide). Entry (r, j) of either stored block depends on row r of the two row-blocked inputs only, so the blocks
  are the restrictions of one function of the whole arrays, and the 5 blocks cover every row: row R lies in block
  R / 10000.
-/
import proofs.«166322_j5231270167342_2_alg».proof.Proof.KernelIdealFrameP
import proofs.«166322_j5231270167342_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

/-- A 10000 × 64 block times a 64 × 64 matrix, into the zero accumulator, at (r, j): the sum over the 64 input channels. -/
theorem matmul_64x64_apply (l : FVec Ideal S10000x64 .bf16) (w : FVec Ideal S64x64 .bf16) (r : Fin 10000) (j : Fin 64) :
    matmul dot_S10000x64_S64x64_S10000x64_1_0_0_1_n_n none l w (constant S10000x64 .f32 0x00000000#32) (ix2 r j)
      = ∑ k : Fin 64, l (ix2 r k) * w (ix2 k j) := by
  show FloatOps.matmul dot_S10000x64_S64x64_S10000x64_1_0_0_1_n_n none l w (constant S10000x64 .f32 0x00000000#32) (ix2 r j) = _
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 r j) ((contrEquiv1 dot_S10000x64_S64x64_S10000x64_1_0_0_1_n_n 64 rfl rfl).symm k) = ix2 r k :=
    funext fun a => Fin.ext (by
      match a with
      | ⟨0, _⟩ =>
        show (dot_S10000x64_S64x64_S10000x64_1_0_0_1_n_n.lhsIdx (ix2 r j) _ 0).val = r.val
        unfold DotDims.lhsIdx
        rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
        rfl
      | ⟨1, _⟩ => exact (dot_S10000x64_S64x64_S10000x64_1_0_0_1_n_n.lhsIdx_val_of_single rfl (ix2 r j) _).trans hk)
  have er : dot_S10000x64_S64x64_S10000x64_1_0_0_1_n_n.rhsIdx (ix2 r j) ((contrEquiv1 dot_S10000x64_S64x64_S10000x64_1_0_0_1_n_n 64 rfl rfl).symm k) = ix2 k j :=
    funext fun a => Fin.ext (by
      match a with
      | ⟨0, _⟩ => exact (dot_S10000x64_S64x64_S10000x64_1_0_0_1_n_n.rhsIdx_val_of_single rfl (ix2 r j) _).trans hk
      | ⟨1, _⟩ =>
        show (dot_S10000x64_S64x64_S10000x64_1_0_0_1_n_n.rhsIdx (ix2 r j) _ 1).val = j.val
        unfold DotDims.rhsIdx
        rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
        rfl)
  rw [el, er]

/-- A 10000 × 64 block times a 64 × 32 matrix, into the zero accumulator, at (r, j): the sum over the 64 hidden channels. -/
theorem matmul_64x32_apply (l : FVec Ideal S10000x64 .bf16) (w : FVec Ideal S64x32 .bf16) (r : Fin 10000) (j : Fin 32) :
    matmul dot_S10000x64_S64x32_S10000x32_1_0_0_1_n_n none l w (constant S10000x32 .f32 0x00000000#32) (ix2 r j)
      = ∑ k : Fin 64, l (ix2 r k) * w (ix2 k j) := by
  show FloatOps.matmul dot_S10000x64_S64x32_S10000x32_1_0_0_1_n_n none l w (constant S10000x32 .f32 0x00000000#32) (ix2 r j) = _
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 r j) ((contrEquiv1 dot_S10000x64_S64x32_S10000x32_1_0_0_1_n_n 64 rfl rfl).symm k) = ix2 r k :=
    funext fun a => Fin.ext (by
      match a with
      | ⟨0, _⟩ =>
        show (dot_S10000x64_S64x32_S10000x32_1_0_0_1_n_n.lhsIdx (ix2 r j) _ 0).val = r.val
        unfold DotDims.lhsIdx
        rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
        rfl
      | ⟨1, _⟩ => exact (dot_S10000x64_S64x32_S10000x32_1_0_0_1_n_n.lhsIdx_val_of_single rfl (ix2 r j) _).trans hk)
  have er : dot_S10000x64_S64x32_S10000x32_1_0_0_1_n_n.rhsIdx (ix2 r j) ((contrEquiv1 dot_S10000x64_S64x32_S10000x32_1_0_0_1_n_n 64 rfl rfl).symm k) = ix2 k j :=
    funext fun a => Fin.ext (by
      match a with
      | ⟨0, _⟩ => exact (dot_S10000x64_S64x32_S10000x32_1_0_0_1_n_n.rhsIdx_val_of_single rfl (ix2 r j) _).trans hk
      | ⟨1, _⟩ =>
        show (dot_S10000x64_S64x32_S10000x32_1_0_0_1_n_n.rhsIdx (ix2 r j) _ 1).val = j.val
        unfold DotDims.rhsIdx
        rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
        rfl)
  rw [el, er]

/-- The first payload at (r, j): the neighbour-mean row through wl, plus the bias, plus the node's own row through wr,
    clipped below at zero. -/
theorem k0_pay1_apply (a x : Vec Ideal S10000x64 .f32) (wl wr : Vec Ideal S64x64 .bf16) (b : Vec Ideal S1x64 .f32)
    (r : Fin 10000) (j : Fin 64) :
    k0_pay1 (F := Ideal) a x wl wr b (ix2 r j)
      = max (((∑ k : Fin 64, a (ix2 r k) * wl (ix2 k j)) + b (ix2 (0 : Fin 1) j)) + ∑ k : Fin 64, x (ix2 r k) * wr (ix2 k j)) 0 := by
  unfold k0_pay1
  rw [maximumf_apply, addf_apply, addf_apply, matmul_64x64_apply, matmul_64x64_apply, broadcastTo_1b_ab_apply, broadcast_apply]
  simp only [shapeCast_self, truncf_apply]
  exact congrArg (max _) Ideal.ofBits_zero_f32

/-- The second payload at (r, j): row r of the first payload through the 64 × 32 matrix w. -/
theorem k0_pay2_apply (a x : Vec Ideal S10000x64 .f32) (wl wr : Vec Ideal S64x64 .bf16) (b : Vec Ideal S1x64 .f32)
    (w : Vec Ideal S64x32 .bf16) (r : Fin 10000) (j : Fin 32) :
    k0_pay2 (F := Ideal) a x wl wr b w (ix2 r j)
      = ∑ k : Fin 64, k0_pay1 (F := Ideal) a x wl wr b (ix2 r k) * w (ix2 k j) := by
  unfold k0_pay2
  rw [truncf_apply, matmul_64x32_apply]
  simp only [shapeCast_self, truncf_apply]

/-! ## The payloads against the two stages -/

/-- Where row r of the two row-blocked inputs is row R of the arrays, the first payload at (r, j) is the first dense
    stage at (R, j). -/
theorem pay1_eq_dense1At (a x : Vec Ideal S10000x64 .f32) (wl wr : Vec Ideal S64x64 .bf16) (b : Vec Ideal S1x64 .f32)
    (A X : Cert.Sage.SNx64.Idx → EReal) (r : Fin 10000) (j : Fin 64) (R : Fin 50000)
    (ha : ∀ k : Fin 64, a (ix2 r k) = A (ix2 R k)) (hx : ∀ k : Fin 64, x (ix2 r k) = X (ix2 R k)) :
    k0_pay1 (F := Ideal) a x wl wr b (ix2 r j) = Cert.Sage.dense1At A X wl b wr R j := by
  rw [k0_pay1_apply]
  unfold Cert.Sage.dense1At
  simp only [ha, hx]

/-- There the second payload at (r, j) is the product of the first dense stage with the 64 × 32 matrix at (R, j). -/
theorem pay2_eq_projAt (a x : Vec Ideal S10000x64 .f32) (wl wr : Vec Ideal S64x64 .bf16) (b : Vec Ideal S1x64 .f32)
    (w : Vec Ideal S64x32 .bf16) (A X : Cert.Sage.SNx64.Idx → EReal) (r : Fin 10000) (j : Fin 32) (R : Fin 50000)
    (ha : ∀ k : Fin 64, a (ix2 r k) = A (ix2 R k)) (hx : ∀ k : Fin 64, x (ix2 r k) = X (ix2 R k)) :
    k0_pay2 (F := Ideal) a x wl wr b w (ix2 r j) = Cert.Sage.projAt (Cert.Sage.dense1 A X wl b wr) w R j := by
  rw [k0_pay2_apply]
  unfold Cert.Sage.projAt
  refine Finset.sum_congr rfl fun k _ => ?_
  rw [pay1_eq_dense1At a x wl wr b A X r k R ha hx]
  rfl

/-! ## The blocks -/

variable (V : (c : Dev nD) → (b : Ref sig .tc) → Buf (Elt Ideal) ((c : Thread nD τ).loc b))

theorem zero_offsets : (![0, 0] : Fin 2 → Nat) = fun _ => 0 := funext fun a => by fin_cases a <;> rfl

/-- The block numbers over the grid: the row-blocked windows sit at block (t, 0), the whole-matrix windows at (0, 0). -/
theorem block_numbers : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row r of block t of the neighbour means is row 10000·t + r of the array. -/
theorem means_block_apply (c : Dev nD) (t : Fin cfg0.N) (r : Fin 10000) (k : Fin 64) (R : Fin 50000)
    (hR : R.val = t.val * 10000 + r.val) :
    (iblk0 V c 0 t : Vec Ideal S10000x64 .f32) (ix2 r k) = (V c main_v26 : Cert.Sage.SNx64.Idx → EReal) (ix2 R k) := by
  obtain ⟨e0, e1, -⟩ := block_numbers t
  unfold iblk0
  rw [View.read_apply]
  show V c main_v26 _ = V c main_v26 _
  congr 1
  funext a
  apply Fin.ext
  match a with
  | ⟨0, _⟩ => show win0_0.index t (0 : Fin 2) * 10000 + 1 * r.val = R.val; rw [e0, hR]; omega
  | ⟨1, _⟩ => show win0_0.index t (1 : Fin 2) * 64 + 1 * k.val = k.val; rw [e1]; omega

/-- Row r of block t of the features is row 10000·t + r of the array. -/
theorem features_block_apply (c : Dev nD) (t : Fin cfg0.N) (r : Fin 10000) (k : Fin 64) (R : Fin 50000)
    (hR : R.val = t.val * 10000 + r.val) :
    (iblk0 V c 1 t : Vec Ideal S10000x64 .f32) (ix2 r k) = (V c main_arg0 : Cert.Sage.SNx64.Idx → EReal) (ix2 R k) := by
  obtain ⟨-, -, e0, e1, -⟩ := block_numbers t
  unfold iblk0
  rw [View.read_apply]
  show V c main_arg0 _ = V c main_arg0 _
  congr 1
  funext a
  apply Fin.ext
  match a with
  | ⟨0, _⟩ => show win0_1.index t (0 : Fin 2) * 10000 + 1 * r.val = R.val; rw [e0, hR]; omega
  | ⟨1, _⟩ => show win0_1.index t (1 : Fin 2) * 64 + 1 * k.val = k.val; rw [e1]; omega

/-- The one block of the first 64 × 64 weight matrix is the matrix. -/
theorem wl_block_eq (c : Dev nD) (t : Fin cfg0.N) :
    (iblk0 V c 2 t : Vec Ideal S64x64 .bf16) = (V c main_v28 : Cert.Sage.S64x64.Idx → EReal) := by
  obtain ⟨-, -, -, -, e0, e1, -⟩ := block_numbers t
  funext y
  unfold iblk0
  rw [View.read_apply]
  show V c main_v28 _ = V c main_v28 _
  congr 1
  funext a
  apply Fin.ext
  match a with
  | ⟨0, _⟩ => show win0_2.index t (0 : Fin 2) * 64 + 1 * (y 0).val = (y 0).val; rw [e0]; omega
  | ⟨1, _⟩ => show win0_2.index t (1 : Fin 2) * 64 + 1 * (y 1).val = (y 1).val; rw [e1]; omega

/-- The one block of the bias row is the row. -/
theorem bias_block_eq (c : Dev nD) (t : Fin cfg0.N) :
    (iblk0 V c 3 t : Vec Ideal S1x64 .f32) = (V c main_v33 : Cert.Sage.S1x64.Idx → EReal) := by
  obtain ⟨-, -, -, -, -, -, e0, e1, -⟩ := block_numbers t
  funext y
  unfold iblk0
  rw [View.read_apply]
  show V c main_v33 _ = V c main_v33 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 64 + 1 * (y 1).val = (y 1).val; rw [e1]; omega

/-- The one block of the second 64 × 64 weight matrix is the matrix. -/
theorem wr_block_eq (c : Dev nD) (t : Fin cfg0.N) :
    (iblk0 V c 4 t : Vec Ideal S64x64 .bf16) = (V c main_v30 : Cert.Sage.S64x64.Idx → EReal) := by
  obtain ⟨-, -, -, -, -, -, -, -, e0, e1, -⟩ := block_numbers t
  funext y
  unfold iblk0
  rw [View.read_apply]
  show V c main_v30 _ = V c main_v30 _
  congr 1
  funext a
  apply Fin.ext
  match a with
  | ⟨0, _⟩ => show win0_4.index t (0 : Fin 2) * 64 + 1 * (y 0).val = (y 0).val; rw [e0]; omega
  | ⟨1, _⟩ => show win0_4.index t (1 : Fin 2) * 64 + 1 * (y 1).val = (y 1).val; rw [e1]; omega

/-- The one block of the 64 × 32 matrix is the matrix. -/
theorem proj_block_eq (c : Dev nD) (t : Fin cfg0.N) :
    (iblk0 V c 5 t : Vec Ideal S64x32 .bf16) = (V c main_v32 : Cert.Sage.S64x32.Idx → EReal) := by
  obtain ⟨-, -, -, -, -, -, -, -, -, -, e0, e1, -⟩ := block_numbers t
  funext y
  unfold iblk0
  rw [View.read_apply]
  show V c main_v32 _ = V c main_v32 _
  congr 1
  funext a
  apply Fin.ext
  match a with
  | ⟨0, _⟩ => show win0_5.index t (0 : Fin 2) * 64 + 1 * (y 0).val = (y 0).val; rw [e0]; omega
  | ⟨1, _⟩ => show win0_5.index t (1 : Fin 2) * 32 + 1 * (y 1).val = (y 1).val; rw [e1]; omega

/-! ## The hidden rows (the 64-wide output) -/

/-- What block t writes back into the hidden rows is block t of the first dense stage of the whole arrays. -/
theorem hidden_flushed_eq (c : Dev nD) (t : Fin cfg0.N) :
    (dat0 (F := Ideal) V c).flushed 6 t
      = ((cfg0.win 6).blk t).view.read (Elt Ideal)
          (Cert.Sage.dense1 (V c main_v26) (V c main_arg0) (V c main_v28) (V c main_v33) (V c main_v30)) := by
  show (cfg0.win 6).cut (grid0.coords t) ((dat0 V c).after 6 t) = _
  rw [after0_6]
  unfold out0_6
  rw [View.canon_unit_zero zero_offsets]
  simp only [View.ld_unit_zero (S := S10000x64) zero_offsets, View.ld_unit_zero (S := S64x64) zero_offsets,
    View.ld_unit_zero (S := S1x64) zero_offsets]
  rw [wl_block_eq, bias_block_eq, wr_block_eq]
  obtain ⟨-, -, -, -, -, -, -, -, -, -, -, -, e0, e1, -⟩ := block_numbers t
  funext y
  have h0 : ((((cfg0.win 6).blk t).view.emb y) 0).val = t.val * 10000 + (y 0).val := by
    show win0_6.index t (0 : Fin 2) * 10000 + 1 * (y 0).val = _
    rw [e0]; omega
  have h1 : (((cfg0.win 6).blk t).view.emb y) 1 = y 1 := Fin.ext (by
    show win0_6.index t (1 : Fin 2) * 64 + 1 * (y 1).val = (y 1).val
    rw [e1]; omega)
  show k0_pay1 (F := Ideal) (iblk0 V c 0 t) (iblk0 V c 1 t) (V c main_v28) (V c main_v30) (V c main_v33) y
    = Cert.Sage.dense1At (V c main_v26) (V c main_arg0) (V c main_v28) (V c main_v33) (V c main_v30)
        ((((cfg0.win 6).blk t).view.emb y) 0) ((((cfg0.win 6).blk t).view.emb y) 1)
  rw [h1]
  refine (congrArg (k0_pay1 (F := Ideal) (iblk0 V c 0 t) (iblk0 V c 1 t) (V c main_v28) (V c main_v30) (V c main_v33)) (eq_ix2 y)).trans ?_
  exact pay1_eq_dense1At _ _ _ _ _ (V c main_v26) (V c main_arg0) (y 0) (y 1) _
    (fun k => means_block_apply V c t (y 0) k _ h0) (fun k => features_block_apply V c t (y 0) k _ h0)

/-- An index of the hidden rows is in block t iff each coordinate is in the block's range on its axis. -/
theorem mem_hidden_block (t : Fin cfg0.N) (i : S50000x64.Idx) :
    i ∈ ((cfg0.win 6).blk t).view.set ↔ ∀ a : Fin 2, win0_6.index t a * S10000x64.size a ≤ (i a).val
      ∧ (i a).val < win0_6.index t a * S10000x64.size a + S10000x64.size a := by
  show i ∈ ((View.whole main_v34_0).slice (win0_6.rect t)).set ↔ _
  rw [View.set_slice_whole, Rect.mem_set_unit]
  exact Iff.rfl

/-- Row R of the hidden rows lies in block R / 10000, and every block is written back. -/
theorem hidden_cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, e0, e1, -⟩ := block_numbers t
  refine ⟨t, flush0_6 t, ?_⟩
  rw [mem_hidden_block]
  intro a
  match a with
  | ⟨0, _⟩ =>
    show win0_6.index t (0 : Fin 2) * 10000 ≤ (i 0).val ∧ (i 0).val < win0_6.index t (0 : Fin 2) * 10000 + 10000
    rw [e0, ht]; omega
  | ⟨1, _⟩ =>
    show win0_6.index t (1 : Fin 2) * 64 ≤ (i 1).val ∧ (i 1).val < win0_6.index t (1 : Fin 2) * 64 + 64
    rw [e1]; omega

/-- THE HIDDEN ROWS after the run: the first dense stage of the arrays the region found. -/
theorem arr_h (c : Dev nD) :
    (Gen.dat0 (F := Ideal) V c).arrAt 6 cfg0.N
      = Cert.Sage.dense1 (V c main_v26) (V c main_arg0) (V c main_v28) (V c main_v33) (V c main_v30) :=
  (dat0 (F := Ideal) V c).arrAt_eq_of_cover 6 _ (fun t _ => hidden_flushed_eq V c t) hidden_cover

/-! ## The projected rows (the 32-wide output) -/

/-- What block t writes back into the projected rows is block t of the first dense stage times the 64 × 32 matrix. -/
theorem projected_flushed_eq (c : Dev nD) (t : Fin cfg0.N) :
    (dat0 (F := Ideal) V c).flushed 7 t
      = ((cfg0.win 7).blk t).view.read (Elt Ideal)
          (Cert.Sage.proj (Cert.Sage.dense1 (V c main_v26) (V c main_arg0) (V c main_v28) (V c main_v33) (V c main_v30))
            (V c main_v32)) := by
  show (cfg0.win 7).cut (grid0.coords t) ((dat0 V c).after 7 t) = _
  rw [after0_7]
  unfold out0_7
  rw [View.canon_unit_zero zero_offsets]
  simp only [View.ld_unit_zero (S := S10000x64) zero_offsets, View.ld_unit_zero (S := S64x64) zero_offsets,
    View.ld_unit_zero (S := S1x64) zero_offsets, View.ld_unit_zero (S := S64x32) zero_offsets]
  rw [wl_block_eq, bias_block_eq, wr_block_eq, proj_block_eq]
  obtain ⟨-, -, -, -, -, -, -, -, -, -, -, -, -, -, e0, e1⟩ := block_numbers t
  funext y
  have h0 : ((((cfg0.win 7).blk t).view.emb y) 0).val = t.val * 10000 + (y 0).val := by
    show win0_7.index t (0 : Fin 2) * 10000 + 1 * (y 0).val = _
    rw [e0]; omega
  have h1 : (((cfg0.win 7).blk t).view.emb y) 1 = y 1 := Fin.ext (by
    show win0_7.index t (1 : Fin 2) * 32 + 1 * (y 1).val = (y 1).val
    rw [e1]; omega)
  show k0_pay2 (F := Ideal) (iblk0 V c 0 t) (iblk0 V c 1 t) (V c main_v28) (V c main_v30) (V c main_v33) (V c main_v32) y
    = Cert.Sage.projAt (Cert.Sage.dense1 (V c main_v26) (V c main_arg0) (V c main_v28) (V c main_v33) (V c main_v30)) (V c main_v32)
        ((((cfg0.win 7).blk t).view.emb y) 0) ((((cfg0.win 7).blk t).view.emb y) 1)
  rw [h1]
  refine (congrArg (k0_pay2 (F := Ideal) (iblk0 V c 0 t) (iblk0 V c 1 t) (V c main_v28) (V c main_v30) (V c main_v33) (V c main_v32)) (eq_ix2 y)).trans ?_
  exact pay2_eq_projAt _ _ _ _ _ _ (V c main_v26) (V c main_arg0) (y 0) (y 1) _
    (fun k => means_block_apply V c t (y 0) k _ h0) (fun k => features_block_apply V c t (y 0) k _ h0)

/-- An index of the projected rows is in block t iff each coordinate is in the block's range on its axis. -/
theorem mem_projected_block (t : Fin cfg0.N) (i : S50000x32.Idx) :
    i ∈ ((cfg0.win 7).blk t).view.set ↔ ∀ a : Fin 2, win0_7.index t a * S10000x32.size a ≤ (i a).val
      ∧ (i a).val < win0_7.index t a * S10000x32.size a + S10000x32.size a := by
  show i ∈ ((View.whole main_v34_1).slice (win0_7.rect t)).set ↔ _
  rw [View.set_slice_whole, Rect.mem_set_unit]
  exact Iff.rfl

/-- Row R of the projected rows lies in block R / 10000, and every block is written back. -/
theorem projected_cover (i : S50000x32.Idx) :
    ∃ t : Fin cfg0.N, (cfg0.win 7).flush t = true ∧ i ∈ ((cfg0.win 7).blk t).view.set := by
  have hi0 : (i 0).val < 50000 := (i 0).isLt
  have hi1 : (i 1).val < 32 := (i 1).isLt
  have hN : cfg0.N = 5 := N_0
  obtain ⟨t, ht⟩ : ∃ t : Fin cfg0.N, t.val = (i 0).val / 10000 := ⟨⟨(i 0).val / 10000, by rw [hN]; omega⟩, rfl⟩
  obtain ⟨-, -, -, -, -, -, -, -, -, -, -, -, -, -, e0, e1⟩ := block_numbers t
  refine ⟨t, flush0_7 t, ?_⟩
  rw [mem_projected_block]
  intro a
  match a with
  | ⟨0, _⟩ =>
    show win0_7.index t (0 : Fin 2) * 10000 ≤ (i 0).val ∧ (i 0).val < win0_7.index t (0 : Fin 2) * 10000 + 10000
    rw [e0, ht]; omega
  | ⟨1, _⟩ =>
    show win0_7.index t (1 : Fin 2) * 32 ≤ (i 1).val ∧ (i 1).val < win0_7.index t (1 : Fin 2) * 32 + 32
    rw [e1]; omega

/-- THE PROJECTED ROWS after the run: the first dense stage of the arrays the region found, times the 64 × 32 matrix. -/
theorem arr_m (c : Dev nD) :
    (Gen.dat0 (F := Ideal) V c).arrAt 7 cfg0.N
      = Cert.Sage.proj (Cert.Sage.dense1 (V c main_v26) (V c main_arg0) (V c main_v28) (V c main_v33) (V c main_v30))
          (V c main_v32) :=
  (dat0 (F := Ideal) V c).arrAt_eq_of_cover 7 _ (fun t _ => projected_flushed_eq V c t) projected_cover

end Cert.KernelIdeal.Region0

end
-- ==== Proof.Region1Pay.lean ====
/-
  The second layer's block arithmetic, read entry by entry.

  One grid point of the second region holds a block of 10000 node rows.  From the block \`h\` of hidden rows
  (10000 × 64), the weight matrix \`wr\` (64 × 32), the block \`a\` of projected neighbour means (10000 × 32), the bias
  row \`b\` (1 × 32), the read-out column \`wf\` (32 × 1) and its bias \`bf\` (1 × 1), the block's result at row \`r\` and
  column \`q\` is

    (∑ j, max ((a r j + b 0 j) + ∑ k, h r k · wr k j) 0 · wf j q) + bf 0 q.

  Over the extended reals a change of float format is the identity, a matrix product accumulated into zero is the
  plain sum over the contracted axis, and the broadcast of a one-row array reads that row: entry (r, q) depends only
  on row \`r\` of \`h\` and of \`a\`.
-/
import proofs.«166322_j5231270167342_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.ValueIdx

/-- A 10000 × 64 block times a 64 × 32 matrix, accumulated into zero: entry (r, j) is the sum over the 64 shared
    coordinates of the products. -/
theorem matmul_rows64_cols32 (x : FVec Ideal S10000x64 .bf16) (w : FVec Ideal S64x32 .bf16) (r : Fin 10000) (j : Fin 32) :
    matmul dot_S10000x64_S64x32_S10000x32_1_0_0_1_n_n none x w (constant (F := Ideal) S10000x32 .f32 0x00000000#32) (ix2 r j)
      = ∑ k : Fin 64, x (ix2 r k) * w (ix2 k j) := by
  show FloatOps.matmul dot_S10000x64_S64x32_S10000x32_1_0_0_1_n_n none x w (constant (F := Ideal) S10000x32 .f32 0x00000000#32) (ix2 r j) = _
  rw [Ideal.matmul_constant_zero_apply, ← Equiv.sum_comp (contrEquiv1 dot_S10000x64_S64x32_S10000x32_1_0_0_1_n_n 64 rfl rfl).symm]
  refine Finset.sum_congr rfl fun k _ => ?_
  have hk := contrEquiv1_symm_val dot_S10000x64_S64x32_S10000x32_1_0_0_1_n_n 64 rfl rfl k
  have el : dot_S10000x64_S64x32_S10000x32_1_0_0_1_n_n.lhsIdx (ix2 r j) ((contrEquiv1 dot_S10000x64_S64x32_S10000x32_1_0_0_1_n_n 64 rfl rfl).symm k) = ix2 r k :=
    funext fun a => Fin.ext (by
      match a with
      | ⟨0, _⟩ =>
        show (dot_S10000x64_S64x32_S10000x32_1_0_0_1_n_n.lhsIdx (ix2 r j) _ 0).val = r.val
        unfold DotDims.lhsIdx
        rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
        rfl
      | ⟨1, _⟩ => exact (dot_S10000x64_S64x32_S10000x32_1_0_0_1_n_n.lhsIdx_val_of_single rfl (ix2 r j) _).trans hk)
  have er : dot_S10000x64_S64x32_S10000x32_1_0_0_1_n_n.rhsIdx (ix2 r j) ((contrEquiv1 dot_S10000x64_S64x32_S10000x32_1_0_0_1_n_n 64 rfl rfl).symm k) = ix2 k j :=
    funext fun a => Fin.ext (by
      match a with
      | ⟨0, _⟩ => exact (dot_S10000x64_S64x32_S10000x32_1_0_0_1_n_n.rhsIdx_val_of_single rfl (ix2 r j) _).trans hk
      | ⟨1, _⟩ =>
        show (dot_S10000x64_S64x32_S10000x32_1_0_0_1_n_n.rhsIdx (ix2 r j) _ 1).val = j.val
        unfold DotDims.rhsIdx
        rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
        rfl)
  rw [el, er]

/-- A 10000 × 32 block times a 32 × 1 column, accumulated into zero: entry (r, q) is the sum over the 32 shared
    coordinates of the products. -/
theorem matmul_rows32_cols1 (x : FVec Ideal S10000x32 .bf16) (w : FVec Ideal S32x1 .bf16) (r : Fin 10000) (q : Fin 1) :
    matmul dot_S10000x32_S32x1_S10000x1_1_0_0_1_n_n none x w (constant (F := Ideal) S10000x1 .f32 0x00000000#32) (ix2 r q)
      = ∑ j : Fin 32, x (ix2 r j) * w (ix2 j q) := by
  show FloatOps.matmul dot_S10000x32_S32x1_S10000x1_1_0_0_1_n_n none x w (constant (F := Ideal) S10000x1 .f32 0x00000000#32) (ix2 r q) = _
  rw [Ideal.matmul_constant_zero_apply, ← Equiv.sum_comp (contrEquiv1 dot_S10000x32_S32x1_S10000x1_1_0_0_1_n_n 32 rfl rfl).symm]
  refine Finset.sum_congr rfl fun k _ => ?_
  have hk := contrEquiv1_symm_val dot_S10000x32_S32x1_S10000x1_1_0_0_1_n_n 32 rfl rfl k
  have el : dot_S10000x32_S32x1_S10000x1_1_0_0_1_n_n.lhsIdx (ix2 r q) ((contrEquiv1 dot_S10000x32_S32x1_S10000x1_1_0_0_1_n_n 32 rfl rfl).symm k) = ix2 r k :=
    funext fun a => Fin.ext (by
      match a with
      | ⟨0, _⟩ =>
        show (dot_S10000x32_S32x1_S10000x1_1_0_0_1_n_n.lhsIdx (ix2 r q) _ 0).val = r.val
        unfold DotDims.lhsIdx
        rw [dif_neg (show ¬(0 : Fin S10000x32.rank) ∈ dot_S10000x32_S32x1_S10000x1_1_0_0_1_n_n.lhsBatch by decide), dif_pos (show (0 : Fin S10000x32.rank) ∈ dot_S10000x32_S32x1_S10000x1_1_0_0_1_n_n.lhsNonContracting by decide)]
        rfl
      | ⟨1, _⟩ => exact (dot_S10000x32_S32x1_S10000x1_1_0_0_1_n_n.lhsIdx_val_of_single rfl (ix2 r q) _).trans hk)
  have er : dot_S10000x32_S32x1_S10000x1_1_0_0_1_n_n.rhsIdx (ix2 r q) ((contrEquiv1 dot_S10000x32_S32x1_S10000x1_1_0_0_1_n_n 32 rfl rfl).symm k) = ix2 k q :=
    funext fun a => Fin.ext (by
      match a with
      | ⟨0, _⟩ => exact (dot_S10000x32_S32x1_S10000x1_1_0_0_1_n_n.rhsIdx_val_of_single rfl (ix2 r q) _).trans hk
      | ⟨1, _⟩ =>
        show (dot_S10000x32_S32x1_S10000x1_1_0_0_1_n_n.rhsIdx (ix2 r q) _ 1).val = q.val
        unfold DotDims.rhsIdx
        rw [dif_neg (show ¬(1 : Fin S32x1.rank) ∈ dot_S10000x32_S32x1_S10000x1_1_0_0_1_n_n.rhsBatch by decide), dif_pos (show (1 : Fin S32x1.rank) ∈ dot_S10000x32_S32x1_S10000x1_1_0_0_1_n_n.rhsNonContracting by decide)]
        rfl)
  rw [el, er]

/-- The second layer's hidden entry (r, j) of a block before the read-out: the projected mean plus the bias row plus
    the block's own hidden row through \`wr\`, clipped below at zero. -/
theorem hidden_entry (h : FVec Ideal S10000x64 .f32) (wr : FVec Ideal S64x32 .bf16) (a : FVec Ideal S10000x32 .f32)
    (b : FVec Ideal S1x32 .f32) (r : Fin 10000) (j : Fin 32) :
    maximumf (addf (addf a (broadcastTo S10000x32 b broadcasts_S1x32_S10000x32))
        (matmul dot_S10000x64_S64x32_S10000x32_1_0_0_1_n_n none (truncf .bf16 h bitsLt_bf16_f32) wr (constant (F := Ideal) S10000x32 .f32 0x00000000#32)))
      (broadcast S10000x32 (Scalar.ofBits (F := Ideal) .f32 0x00000000#32)) (ix2 r j)
      = max ((a (ix2 r j) + b (ix2 (0 : Fin 1) j)) + ∑ k : Fin 64, h (ix2 r k) * wr (ix2 k j)) 0 := by
  show max ((a (ix2 r j) + broadcastTo S10000x32 b broadcasts_S1x32_S10000x32 (ix2 r j))
      + matmul dot_S10000x64_S64x32_S10000x32_1_0_0_1_n_n none (truncf .bf16 h bitsLt_bf16_f32) wr (constant (F := Ideal) S10000x32 .f32 0x00000000#32) (ix2 r j))
      (Ideal.ofBits .f32 0x00000000#32) = _
  rw [broadcastTo_1b_ab_apply, matmul_rows64_cols32, Ideal.ofBits_zero_f32]
  rfl

/-- THE BLOCK'S RESULT AT (r, q): the hidden entries of row `r` through the read-out column, plus its bias. -/
theorem k1_pay1_apply (h : Vec Ideal S10000x64 .f32) (wr : Vec Ideal S64x32 .bf16) (a : Vec Ideal S10000x32 .f32)
    (b : Vec Ideal S1x32 .f32) (wf : Vec Ideal S32x1 .bf16) (bf : Vec Ideal S1x1 .f32) (r : Fin 10000) (q : Fin 1) :
    k1_pay1 (F := Ideal) h wr a b wf bf (ix2 r q)
      = (∑ j : Fin 32, max ((a (ix2 r j) + b (ix2 (0 : Fin 1) j)) + ∑ k : Fin 64, h (ix2 r k) * wr (ix2 k j)) 0 * wf (ix2 j q))
        + bf (ix2 (0 : Fin 1) q) := by
  unfold k1_pay1
  simp only [shapeCast_self]
  refine (addf_apply _ _ _).trans ?_
  refine congrArg₂ (· + ·) ?_ ?_
  · refine (matmul_rows32_cols1 _ _ r q).trans ?_
    refine Finset.sum_congr rfl fun j _ => ?_
    refine congrArg (· * wf (ix2 j q)) ?_
    exact hidden_entry h wr a b r j
  · exact broadcastTo_1b_ab_apply bf broadcasts_S1x1_S10000x1 r q

end Cert.KernelIdeal.Region1

end
-- ==== Proof.Region1.lean ====
/-
  The second region's output array, entry by entry.

  The grid has 5 points; point t holds rows 10000·t … 10000·t + 9999 of the 50000 node rows.  The blocks of the
  projected neighbour means (50000 × 32), of the hidden rows (50000 × 64) and of the output column (50000 × 1)
  move with the point, at block index (t, 0); the weight matrix (64 × 32), the bias row (1 × 32), the read-out
  column (32 × 1) and its bias (1 × 1) are staged whole, at block index (0, 0), at every point.  So a block's
  entry (r, c) sits in its array at (index · size + r, c), and what point t writes back is rows
  10000·t … 10000·t + 9999 of ONE function of the arrays as the region finds them — the second dense stage with its
  read-out.  Entry (r, q) of the output depends only on row r of the projected means and of the hidden rows.  The
  five blocks of the output tile its 50000 rows (row r lies in the block of point r / 10000), so after the last
  point the output array is that function.
-/
import proofs.«166322_j5231270167342_2_alg».proof.Proof.KernelIdealFrameP
import proofs.«166322_j5231270167342_2_alg».proof.Proof.Spec
import proofs.«166322_j5231270167342_2_alg».proof.Proof.Region1Pay
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access, as a function. -/
theorem hz : (![0, 0] : Fin 2 → Nat) = fun _ => 0 := funext fun a => by fin_cases a <;> rfl

/-- The block indices over the grid: the three row-blocked windows (projected means, hidden rows, output) sit at
    (t, 0) at point t, the four whole-array windows at (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- A point of the grid is below 5. -/
theorem point_lt (t : Fin cfg1.N) : t.val < 5 := by
  have h : t.val < grid1.N := t.isLt
  rw [N_1] at h
  exact h

/-- Row r of point t's block is row 10000·t + r of the 50000. -/
abbrev row (t : Fin cfg1.N) (r : Fin 10000) : Fin 50000 := ⟨t.val * 10000 + r.val, by have := point_lt t; have := r.isLt; omega⟩

/-- The block of projected neighbour means at point t: rows 10000·t … of the array. -/
theorem means_block_apply (c : Dev nD) (t : Fin cfg1.N) (r : Fin 10000) (j : Fin 32) :
    (iblk1 V c 0 t : Vec Ideal S10000x32 .f32) (ix2 r j) = (V c main_v47 : S50000x32.Idx → EReal) (ix2 (row t r) j) := by
  obtain ⟨e00, e01, -⟩ := idx_facts t
  unfold iblk1
  rw [View.read_apply]
  show V c main_v47 _ = V c main_v47 _
  refine congrArg (V c main_v47) (funext fun a => Fin.ext ?_)
  match a with
  | ⟨0, _⟩ => show win1_0.index t (0 : Fin 2) * 10000 + 1 * r.val = t.val * 10000 + r.val; rw [e00]; omega
  | ⟨1, _⟩ => show win1_0.index t (1 : Fin 2) * 32 + 1 * j.val = j.val; rw [e01]; omega

/-- The block of hidden rows at point t: rows 10000·t … of the array. -/
theorem hidden_block_apply (c : Dev nD) (t : Fin cfg1.N) (r : Fin 10000) (k : Fin 64) :
    (iblk1 V c 1 t : Vec Ideal S10000x64 .f32) (ix2 r k) = (V c main_v34_0 : S50000x64.Idx → EReal) (ix2 (row t r) k) := by
  obtain ⟨-, -, e10, e11, -⟩ := idx_facts t
  unfold iblk1
  rw [View.read_apply]
  show V c main_v34_0 _ = V c main_v34_0 _
  refine congrArg (V c main_v34_0) (funext fun a => Fin.ext ?_)
  match a with
  | ⟨0, _⟩ => show win1_1.index t (0 : Fin 2) * 10000 + 1 * r.val = t.val * 10000 + r.val; rw [e10]; omega
  | ⟨1, _⟩ => show win1_1.index t (1 : Fin 2) * 64 + 1 * k.val = k.val; rw [e11]; omega

/-- The weight matrix's block at every point is the whole 64 × 32 matrix. -/
theorem weights_block_apply (c : Dev nD) (t : Fin cfg1.N) (k : Fin 64) (j : Fin 32) :
    (iblk1 V c 2 t : Vec Ideal S64x32 .bf16) (ix2 k j) = (V c main_v49 : S64x32.Idx → EReal) (ix2 k j) := by
  obtain ⟨-, -, -, -, e20, e21, -⟩ := idx_facts t
  unfold iblk1
  rw [View.read_apply]
  show V c main_v49 _ = V c main_v49 _
  refine congrArg (V c main_v49) (funext fun a => Fin.ext ?_)
  match a with
  | ⟨0, _⟩ => show win1_2.index t (0 : Fin 2) * 64 + 1 * k.val = k.val; rw [e20]; omega
  | ⟨1, _⟩ => show win1_2.index t (1 : Fin 2) * 32 + 1 * j.val = j.val; rw [e21]; omega

/-- The bias row's block at every point is the whole 1 × 32 row. -/
theorem bias_block_apply (c : Dev nD) (t : Fin cfg1.N) (z : Fin 1) (j : Fin 32) :
    (iblk1 V c 3 t : Vec Ideal S1x32 .f32) (ix2 z j) = (V c main_v50 : S1x32.Idx → EReal) (ix2 z j) := by
  obtain ⟨-, -, -, -, -, -, e30, e31, -⟩ := idx_facts t
  unfold iblk1
  rw [View.read_apply]
  show V c main_v50 _ = V c main_v50 _
  refine congrArg (V c main_v50) (funext fun a => Fin.ext ?_)
  match a with
  | ⟨0, _⟩ => show win1_3.index t (0 : Fin 2) * 1 + 1 * z.val = z.val; rw [e30]; omega
  | ⟨1, _⟩ => show win1_3.index t (1 : Fin 2) * 32 + 1 * j.val = j.val; rw [e31]; omega

/-- The read-out column's block at every point is the whole 32 × 1 column. -/
theorem readout_block_apply (c : Dev nD) (t : Fin cfg1.N) (j : Fin 32) (q : Fin 1) :
    (iblk1 V c 4 t : Vec Ideal S32x1 .bf16) (ix2 j q) = (V c main_v52 : S32x1.Idx → EReal) (ix2 j q) := by
  obtain ⟨-, -, -, -, -, -, -, -, e40, e41, -⟩ := idx_facts t
  unfold iblk1
  rw [View.read_apply]
  show V c main_v52 _ = V c main_v52 _
  refine congrArg (V c main_v52) (funext fun a => Fin.ext ?_)
  match a with
  | ⟨0, _⟩ => show win1_4.index t (0 : Fin 2) * 32 + 1 * j.val = j.val; rw [e40]; omega
  | ⟨1, _⟩ => show win1_4.index t (1 : Fin 2) * 1 + 1 * q.val = q.val; rw [e41]; omega

/-- The read-out bias's block at every point is the whole 1 × 1 array. -/
theorem readout_bias_block_apply (c : Dev nD) (t : Fin cfg1.N) (z : Fin 1) (q : Fin 1) :
    (iblk1 V c 5 t : Vec Ideal S1x1 .f32) (ix2 z q) = (V c main_v53 : S1x1.Idx → EReal) (ix2 z q) := by
  obtain ⟨-, -, -, -, -, -, -, -, -, -, e50, e51, -⟩ := idx_facts t
  unfold iblk1
  rw [View.read_apply]
  show V c main_v53 _ = V c main_v53 _
  refine congrArg (V c main_v53) (funext fun a => Fin.ext ?_)
  match a with
  | ⟨0, _⟩ => show win1_5.index t (0 : Fin 2) * 1 + 1 * z.val = z.val; rw [e50]; omega
  | ⟨1, _⟩ => show win1_5.index t (1 : Fin 2) * 1 + 1 * q.val = q.val; rw [e51]; omega

/-- Entry (r, q) of the output's block at point t sits at (10000·t + r, q) of the output array. -/
theorem out_block_emb (t : Fin cfg1.N) (r : Fin 10000) (q : Fin 1) :
    (((cfg1.win 6).blk t).view.emb (ix2 r q) : S50000x1.Idx) = ix2 (row t r) q := by
  obtain ⟨-, -, -, -, -, -, -, -, -, -, -, -, e60, e61⟩ := idx_facts t
  refine funext fun a => Fin.ext ?_
  match a with
  | ⟨0, _⟩ => show win1_6.index t (0 : Fin 2) * 10000 + 1 * r.val = t.val * 10000 + r.val; rw [e60]; omega
  | ⟨1, _⟩ => show win1_6.index t (1 : Fin 2) * 1 + 1 * q.val = q.val; rw [e61]; omega

/-- WHAT POINT t WRITES BACK is rows 10000·t … 10000·t + 9999 of the second dense stage (with its read-out) of the
    arrays as the region finds them. -/
theorem flushed_eq (c : Dev nD) (t : Fin cfg1.N) :
    (dat1 (F := Ideal) V c).flushed 6 t
      = ((cfg1.win 6).blk t).view.read (Elt Ideal)
          (Cert.Sage.dense2 (V c main_v47) (V c main_v34_0) (V c main_v49) (V c main_v50) (V c main_v52) (V c main_v53)) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x32) hz, View.ld_unit_zero (S := S10000x32) hz,
    View.ld_unit_zero (S := S1x32) hz, View.ld_unit_zero (S := S32x1) hz, View.ld_unit_zero (S := S1x1) hz]
  funext j
  obtain ⟨r, q, rfl⟩ : ∃ (r : Fin 10000) (q : Fin 1), j = ix2 r q := ⟨j 0, j 1, eq_ix2 j⟩
  show k1_pay1 (F := Ideal) (iblk1 V c 1 t) (iblk1 V c 2 t) (iblk1 V c 0 t) (iblk1 V c 3 t) (iblk1 V c 4 t) (iblk1 V c 5 t) (ix2 r q)
    = Cert.Sage.dense2 (V c main_v47) (V c main_v34_0) (V c main_v49) (V c main_v50) (V c main_v52) (V c main_v53)
        (((cfg1.win 6).blk t).view.emb (ix2 r q))
  refine (k1_pay1_apply (iblk1 V c 1 t) (iblk1 V c 2 t) (iblk1 V c 0 t) (iblk1 V c 3 t) (iblk1 V c 4 t) (iblk1 V c 5 t) r q).trans ?_
  rw [out_block_emb t r q]
  simp only [means_block_apply V c t, hidden_block_apply V c t, weights_block_apply V c t, bias_block_apply V c t,
    readout_block_apply V c t, readout_bias_block_apply V c t]
  rfl

/-- An index of the output array is in point t's block iff each coordinate is in the block's range on its axis. -/
theorem mem_blk (t : Fin cfg1.N) (i : S50000x1.Idx) :
    i ∈ ((cfg1.win 6).blk t).view.set
      ↔ ∀ a : Fin 2, win1_6.index t a * S10000x1.size a ≤ (i a).val ∧ (i a).val < win1_6.index t a * S10000x1.size a + S10000x1.size a := by
  show i ∈ ((View.whole main_v54).slice (win1_6.rect t)).set ↔ _
  rw [View.set_slice_whole, Rect.mem_set_unit]
  exact Iff.rfl

/-- The five blocks tile the 50000 rows: row r lies in the block of point r / 10000. -/
theorem covered (i : S50000x1.Idx) :
    ∃ t : Fin cfg1.N, (cfg1.win 6).flush t = true ∧ i ∈ ((cfg1.win 6).blk t).view.set := by
  have hi0 : (i 0).val < 50000 := (i 0).isLt
  have hi1 : (i 1).val < 1 := (i 1).isLt
  have hN : grid1.N = 5 := N_1
  have hlt : (i 0).val / 10000 < grid1.N := by rw [hN]; omega
  obtain ⟨-, -, -, -, -, -, -, -, -, -, -, -, e60, e61⟩ := idx_facts ⟨(i 0).val / 10000, hlt⟩
  refine ⟨⟨(i 0).val / 10000, hlt⟩, flush1_6 _, ?_⟩
  rw [mem_blk]
  intro a
  match a with
  | ⟨0, _⟩ =>
    show win1_6.index ⟨(i 0).val / 10000, hlt⟩ (0 : Fin 2) * 10000 ≤ (i 0).val
      ∧ (i 0).val < win1_6.index ⟨(i 0).val / 10000, hlt⟩ (0 : Fin 2) * 10000 + 10000
    rw [e60]
    show (i 0).val / 10000 * 10000 ≤ (i 0).val ∧ (i 0).val < (i 0).val / 10000 * 10000 + 10000
    omega
  | ⟨1, _⟩ =>
    show win1_6.index ⟨(i 0).val / 10000, hlt⟩ (1 : Fin 2) * 1 ≤ (i 1).val
      ∧ (i 1).val < win1_6.index ⟨(i 0).val / 10000, hlt⟩ (1 : Fin 2) * 1 + 1
    rw [e61]
    omega

/-- THE OUTPUT ARRAY after the region's last point is the second dense stage with its read-out, of the arrays as the
    region finds them: projected neighbour means, hidden rows, weight matrix, bias row, read-out column and its bias. -/
theorem arr_out (c : Dev nD) :
    (Gen.dat1 (F := Ideal) V c).arrAt 6 cfg1.N
      = Cert.Sage.dense2 (V c main_v47) (V c main_v34_0) (V c main_v49) (V c main_v50) (V c main_v52) (V c main_v53) :=
  (dat1 (F := Ideal) V c).arrAt_eq_of_cover 6 _ (fun t _ => flushed_eq V c t) covered

end Cert.KernelIdeal.Region1

end
-- ==== Proof.RefSpec.lean ====
/-
  The reference program's dense stages, read off its operations one at a time, are the specification's.

  The first layer's activation is `dense1` of the neighbour mean, the features, the two transposed weight
  matrices and the bias row; the network's output is `dense2` of the projected second-layer mean, the first
  layer's activation, the transposed weights, the bias row, the read-out column and its bias. Each is one
  unfolding of the operations' values at an index: a matrix product is the sum over the contracted coordinate,
  a broadcast row reads row 0, the clip is the maximum with the zero constant.
-/
import proofs.«166322_j5231270167342_2_alg».proof.Proof.Gen.ReferenceIdeal.Read
import proofs.«166322_j5231270167342_2_alg».proof.Proof.Spec

noncomputable section

open scoped BigOperators

namespace Cert.ReferenceIdeal.RefSpec

open Cert.ReferenceIdeal Cert.ReferenceIdeal.Read Idealize.ShloMosaic Idealize.ShloMosaic.ValueIdx

variable [Cert.ReferenceIdeal.Facts]

/-- An array of extended reals over a shape. -/
abbrev Arr (s : Shape) : Type := (⟨s, .f32⟩ : BufTy).Contents (Elt Ideal)

/-- The first layer's activation is the first dense stage of the neighbour mean and the features. -/
theorem hidden1_eq (x0 : Arr S50000x64) (x1 : (⟨S2x1600000, .i32⟩ : BufTy).Contents (Elt Ideal)) (x2 : Arr S64x64) (x3 : Arr S64)
    (x4 : Arr S64x64) :
    val_main_v31 (F := Ideal) x0 x1 x2 x3 x4
      = Cert.Sage.dense1 (val_main_v22 (F := Ideal) x0 x1) x0 (val_main_v23 (F := Ideal) x2) (val_main_v25 (F := Ideal) x3)
          (val_main_v28 (F := Ideal) x4) := by
  funext i
  obtain ⟨r, j, rfl⟩ : ∃ (r : Fin 50000) (j : Fin 64), i = ix2 r j := ⟨i 0, i 1, eq_ix2 i⟩
  have e1 : ∀ k : Fin 64, lidx_main_v24 (ix2 r j) k = ix2 r k := fun k => funext fun a => by
    match a with | ⟨0, _⟩ => rfl | ⟨1, _⟩ => rfl
  have e2 : ∀ k : Fin 64, ridx_main_v24 (ix2 r j) k = ix2 k j := fun k => funext fun a => by
    match a with | ⟨0, _⟩ => rfl | ⟨1, _⟩ => rfl
  have e3 : ∀ k : Fin 64, lidx_main_v29 (ix2 r j) k = ix2 r k := fun k => funext fun a => by
    match a with | ⟨0, _⟩ => rfl | ⟨1, _⟩ => rfl
  have e4 : ∀ k : Fin 64, ridx_main_v29 (ix2 r j) k = ix2 k j := fun k => funext fun a => by
    match a with | ⟨0, _⟩ => rfl | ⟨1, _⟩ => rfl
  have e5 : idx_main_v26 (ix2 r j) = ix2 (0 : Fin 1) j := funext fun a => by
    match a with | ⟨0, _⟩ => rfl | ⟨1, _⟩ => rfl
  rw [val_main_v31_apply, val_main_v30_apply, val_main_v27_apply, val_main_v24_apply, val_main_v26_apply, val_main_v29_apply,
    val_main_call0_v0_apply, val_main_call0_cst_apply]
  simp only [e1, e2, e3, e4, e5, Ideal.addf_def, Ideal.maximumf_def, Ideal.ofBits_def, Ideal.ofBits_zero_f32]
  rfl

/-- The network's output is the second dense stage of the projected mean and the first layer's activation. -/
theorem out_eq (x0 : Arr S50000x64) (x1 : (⟨S2x1600000, .i32⟩ : BufTy).Contents (Elt Ideal)) (x2 : Arr S64x64) (x3 : Arr S64)
    (x4 : Arr S64x64) (x5 : Arr S32x64) (x6 : Arr S32) (x7 : Arr S32x64) (x8 : Arr S1x32) (x9 : Arr S1) :
    val_main_v68 (F := Ideal) x0 x1 x2 x3 x4 x5 x6 x7 x8 x9
      = Cert.Sage.dense2 (val_main_v56 (F := Ideal) x0 x1 x2 x3 x4 x5) (val_main_v31 (F := Ideal) x0 x1 x2 x3 x4)
          (val_main_v60 (F := Ideal) x7) (val_main_v57 (F := Ideal) x6) (val_main_v64 (F := Ideal) x8)
          (val_main_v66 (F := Ideal) x9) := by
  funext i
  obtain ⟨r, q, rfl⟩ : ∃ (r : Fin 50000) (q : Fin 1), i = ix2 r q := ⟨i 0, i 1, eq_ix2 i⟩
  have e1 : ∀ j : Fin 32, lidx_main_v65 (ix2 r q) j = ix2 r j := fun j => funext fun a => by
    match a with | ⟨0, _⟩ => rfl | ⟨1, _⟩ => rfl
  have e2 : ∀ j : Fin 32, ridx_main_v65 (ix2 r q) j = ix2 j q := fun j => funext fun a => by
    match a with | ⟨0, _⟩ => rfl | ⟨1, _⟩ => rfl
  have e3 : idx_main_v67 (ix2 r q) = ix2 (0 : Fin 1) q := funext fun a => by
    match a with | ⟨0, _⟩ => rfl | ⟨1, _⟩ => exact Fin.ext (by have := q.isLt; show 0 = q.val; omega)
  have e4 : ∀ (j : Fin 32) (k : Fin 64), lidx_main_v61 (ix2 r j) k = ix2 r k := fun j k => funext fun a => by
    match a with | ⟨0, _⟩ => rfl | ⟨1, _⟩ => rfl
  have e5 : ∀ (j : Fin 32) (k : Fin 64), ridx_main_v61 (ix2 r j) k = ix2 k j := fun j k => funext fun a => by
    match a with | ⟨0, _⟩ => rfl | ⟨1, _⟩ => rfl
  have e6 : ∀ j : Fin 32, idx_main_v58 (ix2 r j) = ix2 (0 : Fin 1) j := fun j => funext fun a => by
    match a with | ⟨0, _⟩ => rfl | ⟨1, _⟩ => rfl
  rw [val_main_v68_apply, val_main_v65_apply, val_main_v67_apply]
  simp only [e1, e2, e3]
  have hrow : ∀ j : Fin 32, val_main_v63 (F := Ideal) x0 x1 x2 x3 x4 x5 x6 x7 (ix2 r j)
      = Cert.Sage.hidden2At (val_main_v56 (F := Ideal) x0 x1 x2 x3 x4 x5) (val_main_v31 (F := Ideal) x0 x1 x2 x3 x4)
          (val_main_v60 (F := Ideal) x7) (val_main_v57 (F := Ideal) x6) r j := by
    intro j
    rw [val_main_v63_apply, val_main_v62_apply, val_main_v59_apply, val_main_v58_apply, val_main_v61_apply,
      val_main_call1_v0_apply, val_main_call1_cst_apply]
    simp only [e4, e5, e6, Ideal.addf_def, Ideal.maximumf_def, Ideal.ofBits_def, Ideal.ofBits_zero_f32]
    rfl
  simp only [hrow, Ideal.addf_def]
  rfl

end Cert.ReferenceIdeal.RefSpec

end
-- ==== Proof.Law.lean ====
/-
  Finite extended reals, and the law by which a neighbour mean commutes with a matrix product.

  On the extended reals multiplication does not distribute over sums at the infinities, so the law is stated for
  entries that are (coercions of) real numbers: for a finite family `P` of rows `h e`, a column `w` and a
  nonzero real `c`,  (0 + ∑ e ∈ P, ∑ k, h e k · w k) · (1 / c) = ∑ k, ((0 + ∑ e ∈ P, h e k) / c) · w k.
-/
import Idealize.ShloMosaic.PureOps.Ideal

noncomputable section

open scoped BigOperators

namespace Cert.Law

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  -- the larger of two elements of a linear order is one of them
  rcases le_total x y with hxy | hxy
  · rw [max_eq_right hxy]; exact hy
  · rw [max_eq_left hxy]; exact hx
theorem IsReal.sum {ι : Type} (s : Finset ι) (f : ι → EReal) (hf : ∀ i ∈ s, IsReal (f i)) : IsReal (∑ i ∈ s, f i) := by
  classical
  revert hf
  refine Finset.induction_on s ?_ ?_
  · intro _
    rw [Finset.sum_empty]
    exact isReal_zero
  · intro a t ha ih hf
    rw [Finset.sum_insert ha]
    exact (hf a (Finset.mem_insert_self a t)).add (ih fun i hi => hf i (Finset.mem_insert_of_mem hi))
/-- The quotient by a nonzero real. -/
theorem IsReal.div {x : EReal} (hx : IsReal x) {c : ℝ} (hc : c ≠ 0) : IsReal (Ideal.div x (c : EReal)) := by
  -- x / c = x · (1 / c), a product of two reals
  obtain ⟨a, rfl⟩ := hx
  rw [Ideal.div_coe hc, ← EReal.coe_mul]
  exact ⟨_, rfl⟩

/-- The coercion of a finite sum of reals is the sum of the coercions. -/
private theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty, EReal.coe_zero]
  · intro a t ha ih
    rw [Finset.sum_insert ha, Finset.sum_insert ha, EReal.coe_add, ih]

/-- A count of ones clipped below at one is a real number that is not zero. -/
theorem max_count_one {ι : Type} (s : Finset ι) : ∃ c : ℝ, c ≠ 0 ∧ max ((0 : EReal) + ∑ _i ∈ s, (1 : EReal)) 1 = (c : EReal) := by
  -- the sum of |s| ones is the natural number |s|; the witness is max |s| 1 ≥ 1
  refine ⟨max (s.card : ℝ) 1, ?_, ?_⟩
  · have h1 : (1 : ℝ) ≤ max (s.card : ℝ) 1 := le_max_right _ _
    intro h0
    rw [h0] at h1
    exact absurd h1 (by norm_num)
  · have hs : (∑ _i ∈ s, (1 : EReal)) = ((s.card : ℝ) : EReal) := by
      rw [← EReal.coe_one, ← coe_sum, Finset.sum_const, nsmul_eq_mul, mul_one]
    rw [zero_add, hs, EReal.coe_strictMono.monotone.map_max, EReal.coe_one]

/-- Multiplying by the reciprocal of a nonzero real is dividing by it, at the infinities too. -/
theorem mul_one_div (x : EReal) {c : ℝ} (hc : c ≠ 0) : x * Ideal.div 1 (c : EReal) = Ideal.div x (c : EReal) := by
  -- both sides are x · (1 / c)
  rw [Ideal.div_coe hc, Ideal.div_coe hc, one_mul]

/-- THE LAW: the mean of projected rows is the projection of the mean, for real entries. -/
theorem mean_proj_comm {ι κ : Type} [Fintype κ] (P : Finset ι) (h : ι → κ → EReal) (w : κ → EReal) {c : ℝ} (hc : c ≠ 0)
    (hh : ∀ e k, IsReal (h e k)) (hw : ∀ k, IsReal (w k)) :
    ((0 : EReal) + ∑ e ∈ P, ∑ k, h e k * w k) * Ideal.div 1 (c : EReal)
      = ∑ k, Ideal.div ((0 : EReal) + ∑ e ∈ P, h e k) (c : EReal) * w k := by
  -- name the real entries, so that both sides are coercions of real expressions
  choose h' hh' using hh
  choose w' hw' using hw
  have eh : h = fun e k => ((h' e k : ℝ) : EReal) := by funext e k; exact hh' e k
  have ew : w = fun k => ((w' k : ℝ) : EReal) := by funext k; exact hw' k
  subst eh ew
  -- division by c is multiplication by 1 / c; pull every coercion outward
  simp only [Ideal.div_coe hc, zero_add, one_mul, ← EReal.coe_mul, ← coe_sum]
  congr 1
  -- in ℝ: (∑ e, ∑ k, h e k · w k) · c⁻¹ = ∑ k, (∑ e, h e k) · c⁻¹ · w k
  rw [Finset.sum_comm, Finset.sum_mul]
  refine Finset.sum_congr rfl fun k _ => ?_
  rw [← Finset.sum_mul]
  ring

end Cert.Law

end
-- ==== Proof.Count.lean ====
/-
  The clipped in-degree of a node is a nonzero real number, and its reciprocal column reads it row by row.

  The in-degree is an accumulating scatter of ones into zeros: at node `r` it is zero plus one for every edge that
  lands on `r`, a natural number; clipped below at one it is a real number that is at least one.
-/
import proofs.«166322_j5231270167342_2_alg».proof.Proof.KHost
import proofs.«166322_j5231270167342_2_alg».proof.Proof.Law
import Idealize.ShloMosaic.Lib.Pipeline.Value
import Idealize.ShloMosaic.Lib.ValueIdx

noncomputable section

open scoped BigOperators

namespace Cert.Count

open Idealize.ShloMosaic Idealize.ShloMosaic.ValueIdx
open Cert.ReferenceIdeal.Read (val_main_v19)

variable [Cert.ReferenceIdeal.Facts]

/-- The single-precision word of one is the real number one. -/
private theorem one_f32 : Ideal.ofBits .f32 0x3F800000#32 = 1 := by
  simp [Ideal.ofBits, Ideal.ieee, -EReal.coe_mul]; norm_num

/-- An accumulating scatter of ones into an operand that is zero at `i`, clipped below at one, is at `i` a nonzero real:
    zero plus a one for every update that lands on `i`. Stated over arbitrary shapes. -/
private theorem clipped_scatter_ones_real {s si su : Shape} {φ : FTy} (d : ScatterDims s si su) {w : Nat}
    (x : FVec Ideal s φ) (idx : IVec si w) (upd : FVec Ideal su φ) (o : Ideal φ) (i : s.Idx)
    (hx : x i = 0) (hu : ∀ j, upd j = 1) (ho : o = 1) :
    ∃ cr : ℝ, cr ≠ 0 ∧ FloatOps.maximumf (Host.scatterAdd d x idx upd i) o = (cr : EReal) := by
  show ∃ cr : ℝ, cr ≠ 0 ∧ max (x i + ∑ j ∈ Finset.univ.filter (fun j => d.resultIdx? j idx = some i), upd j) o = (cr : EReal)
  rw [hx, ho, Finset.sum_congr rfl (fun j _ => hu j)]
  exact Cert.Law.max_count_one _

/-- A quotient whose numerator is one at `i` is there the reciprocal of the denominator. -/
private theorem hostDivf_one_at {s : Shape} {φ : FTy} (x y : FVec Ideal s φ) (i : s.Idx) (hx : x i = 1) :
    Host.divf x y i = Ideal.div 1 (y i) := by
  show Ideal.div (x i) (y i) = _
  rw [hx]

/-- The clipped in-degree at node `r` is a nonzero real. -/
theorem count_real (x1 : (⟨Cert.ReferenceIdeal.S2x1600000, .i32⟩ : BufTy).Contents (Elt Ideal)) (r : Fin 50000) :
    ∃ cr : ℝ, cr ≠ 0 ∧ val_main_v19 (F := Ideal) x1 (ix1 r) = (cr : EReal) := by
  -- the in-degree at r is zero plus a one for every edge whose destination is r
  have h15 : Cert.ReferenceIdeal.Read.val_main_v15 (F := Ideal) (ix1 r) = 0 := by
    rw [Cert.ReferenceIdeal.Read.val_main_v15_apply, Cert.ReferenceIdeal.Read.val_main_cst_2_apply]
    exact Ideal.ofBits_zero_f32
  have h14 : ∀ j, Cert.ReferenceIdeal.Read.val_main_v14 (F := Ideal) j = 1 := fun j => by
    rw [Cert.ReferenceIdeal.Read.val_main_v14_apply, Cert.ReferenceIdeal.Read.val_main_cst_1_apply]
    exact one_f32
  have h18 : Cert.ReferenceIdeal.Read.val_main_v18 (F := Ideal) (ix1 r) = 1 := by
    rw [Cert.ReferenceIdeal.Read.val_main_v18_apply, Cert.ReferenceIdeal.Read.val_main_cst_3_apply]
    exact one_f32
  rw [Cert.ReferenceIdeal.Read.val_main_v19_apply]
  unfold Cert.ReferenceIdeal.Read.val_main_v17
  exact clipped_scatter_ones_real (φ := .f32) _ _ _ _ _ _ h15 h14 h18

/-- The reciprocal column at `(r, q)` is one over the clipped in-degree at `r`. -/
theorem invCol_apply (x1 : (⟨Cert.ReferenceIdeal.S2x1600000, .i32⟩ : BufTy).Contents (Elt Ideal)) (r : Fin 50000) (q : Fin 1) :
    Cert.KernelIdeal.KHost.invCol x1 (ix2 r q) = Ideal.div 1 (val_main_v19 (F := Ideal) x1 (ix1 r)) := by
  have h18 : Cert.ReferenceIdeal.Read.val_main_v18 (F := Ideal) (ix1 r) = 1 := by
    rw [Cert.ReferenceIdeal.Read.val_main_v18_apply, Cert.ReferenceIdeal.Read.val_main_cst_3_apply]
    exact one_f32
  unfold Cert.KernelIdeal.KHost.invCol
  -- the column's entry (r, q) sits at row-major position r, as entry r of the vector does
  rw [shapeCast_apply _ _ (ix2 r q) (ix1 r) (by
    rewrite [Shape.rowMajor_val_one, Shape.rowMajor_val_two]
    have hq : q.val < 1 := q.isLt
    show r.val = r.val * 1 + q.val
    omega)]
  exact hostDivf_one_at _ _ _ h18

end Cert.Count

end
-- ==== Proof.Mean1.lean ====
/-
  The first layer's neighbour mean, computed as the neighbour sum TIMES the reciprocal of the clipped in-degree, is the
  reference's, computed as the sum DIVIDED BY the clipped in-degree: the in-degree is a nonzero real, and multiplying by
  the reciprocal of a nonzero real is dividing by it on every extended real. The bias rows: a vector reshaped to a
  one-row matrix and the same vector broadcast into a one-row matrix hold the same entries.
-/
import proofs.«166322_j5231270167342_2_alg».proof.Proof.Count
import proofs.«166322_j5231270167342_2_alg».proof.Proof.Law
import Idealize.ShloMosaic.Lib.Pipeline.Value
import Idealize.ShloMosaic.Lib.ValueIdx
import Idealize.ShloMosaic.Lib.ValueLayout

noncomputable section

open scoped BigOperators

namespace Cert.Mean1

open Idealize.ShloMosaic Idealize.ShloMosaic.ValueIdx
open Cert.ReferenceIdeal.Read (val_main_v13 val_main_v19 val_main_v22 val_main_v25 val_main_v57 val_main_v66)

variable [Cert.ReferenceIdeal.Facts]

/-- The neighbour sum times the broadcast reciprocal column is the reference's neighbour mean. -/
theorem mean1_eq (x0 : (⟨Cert.ReferenceIdeal.S50000x64, .f32⟩ : BufTy).Contents (Elt Ideal)) (x1 : (⟨Cert.ReferenceIdeal.S2x1600000, .i32⟩ : BufTy).Contents (Elt Ideal)) :
    mulf (F := Ideal) (φ := .f32) (val_main_v13 (F := Ideal) x0 x1)
        (broadcastInDim Cert.KernelIdeal.S50000x64 ![0, 1] Cert.KernelIdeal.Gen.bcast_S50000x1_S50000x64_0_1 (Cert.KernelIdeal.KHost.invCol x1))
      = val_main_v22 (F := Ideal) x0 x1 := by
  funext i
  obtain ⟨r, k, rfl⟩ : ∃ (r : Fin 50000) (k : Fin 64), i = ix2 r k := ⟨i 0, i 1, eq_ix2 i⟩
  -- the clipped in-degree at row r is a nonzero real c
  obtain ⟨cr, hcr, hc⟩ := Cert.Count.count_real x1 r
  -- the broadcast column at (r, k) is the column at (r, 0): one over c
  have hb : broadcastInDim Cert.KernelIdeal.S50000x64 ![0, 1] Cert.KernelIdeal.Gen.bcast_S50000x1_S50000x64_0_1
      (Cert.KernelIdeal.KHost.invCol x1) (ix2 r k) = Ideal.div 1 (cr : EReal) := by
    rw [broadcastInDim_apply ![0, 1] Cert.KernelIdeal.Gen.bcast_S50000x1_S50000x64_0_1 (Cert.KernelIdeal.KHost.invCol x1)
      (ix2 r k) (ix2 r (0 : Fin 1)) (fun a => match a with
        | ⟨0, _⟩ => by show r.val = if (50000 : Nat) = 1 then 0 else r.val; rw [if_neg (by decide)]
        | ⟨1, _⟩ => by show 0 = if (1 : Nat) = 1 then 0 else k.val; rw [if_pos rfl]),
      Cert.Count.invCol_apply, hc]
  -- the reference's divisor at (r, k) is the clipped in-degree at r
  have hi : Cert.ReferenceIdeal.Read.idx_main_v20 (Cert.ReferenceIdeal.Read.idx_main_v21 (ix2 r k)) = ix1 r :=
    funext fun a => match a with | ⟨0, _⟩ => rfl
  have hd : Cert.ReferenceIdeal.Read.val_main_v21 (F := Ideal) x1 (ix2 r k) = (cr : EReal) := by
    rw [Cert.ReferenceIdeal.Read.val_main_v21_apply, Cert.ReferenceIdeal.Read.val_main_v20_apply, hi]
    exact hc
  rw [Cert.ReferenceIdeal.Read.val_main_v22_apply, mulf_apply, hb, hd, Ideal.hostDivf_def]
  generalize val_main_v13 (F := Ideal) x0 x1 (ix2 r k) = s
  exact Cert.Law.mul_one_div s hcr

/-- The 64 biases as a one-row matrix: reshaped or broadcast, the same row. -/
theorem bias1_eq (x3 : (⟨Cert.ReferenceIdeal.S64, .f32⟩ : BufTy).Contents (Elt Ideal)) :
    shapeCast Cert.KernelIdeal.S1x64 x3 Cert.KernelIdeal.Gen.shapeCasts_S64_S1x64 = val_main_v25 (F := Ideal) x3 := by
  funext i
  obtain ⟨p, j, rfl⟩ : ∃ (p : Fin 1) (j : Fin 64), i = ix2 p j := ⟨i 0, i 1, eq_ix2 i⟩
  rw [Cert.ReferenceIdeal.Read.val_main_v25_apply]
  -- entry (0, j) of the one-row matrix sits at row-major position j, as entry j of the vector does
  refine shapeCast_apply x3 _ (ix2 p j) _ ?_
  rewrite [Shape.rowMajor_val_one, Shape.rowMajor_val_two]
  have hp : p.val < 1 := p.isLt
  show j.val = p.val * 64 + j.val
  omega

/-- The 32 biases as a one-row matrix. -/
theorem bias2_eq (x6 : (⟨Cert.ReferenceIdeal.S32, .f32⟩ : BufTy).Contents (Elt Ideal)) :
    shapeCast Cert.KernelIdeal.S1x32 x6 Cert.KernelIdeal.Gen.shapeCasts_S32_S1x32 = val_main_v57 (F := Ideal) x6 := by
  funext i
  obtain ⟨p, j, rfl⟩ : ∃ (p : Fin 1) (j : Fin 32), i = ix2 p j := ⟨i 0, i 1, eq_ix2 i⟩
  rw [Cert.ReferenceIdeal.Read.val_main_v57_apply]
  refine shapeCast_apply x6 _ (ix2 p j) _ ?_
  rewrite [Shape.rowMajor_val_one, Shape.rowMajor_val_two]
  have hp : p.val < 1 := p.isLt
  show j.val = p.val * 32 + j.val
  omega

/-- The read-out bias as a one-entry matrix. -/
theorem bias3_eq (x9 : (⟨Cert.ReferenceIdeal.S1, .f32⟩ : BufTy).Contents (Elt Ideal)) :
    shapeCast Cert.KernelIdeal.S1x1 x9 Cert.KernelIdeal.Gen.shapeCasts_S1_S1x1 = val_main_v66 (F := Ideal) x9 := by
  funext i
  obtain ⟨p, j, rfl⟩ : ∃ (p : Fin 1) (j : Fin 1), i = ix2 p j := ⟨i 0, i 1, eq_ix2 i⟩
  rw [Cert.ReferenceIdeal.Read.val_main_v66_apply]
  refine shapeCast_apply x9 _ (ix2 p j) _ ?_
  rewrite [Shape.rowMajor_val_one, Shape.rowMajor_val_two]
  have hp : p.val < 1 := p.isLt
  have hj : j.val < 1 := j.isLt
  show 0 = p.val * 1 + j.val
  omega

end Cert.Mean1

end
-- ==== Proof.LibRows.lean ====
/-
  Row gather and row scatter-add, read at an index.

  `x[idx]` along axis 0 of a two-dimensional array `x : [N, D]` at a column `idx : [E, 1]` of row numbers takes,
  for each of the `E` entries, the whole row the entry names: entry `e` is read as a signed integer and clamped
  into `[0, N − 1]`. The accumulating scatter with the same dimension numbers adds row `e` of the updates
  `[E, D]` into the row of the operand that entry `e` names, and drops it when the entry names no row (the start
  is read signed and is not clamped). Neither the row a gather reads nor the set of updates landing on a row
  depends on the width `D`.
-/
import Idealize.ShloMosaic.PureOps.Ideal
import Idealize.ShloMosaic.Lib.ValueIdx

noncomputable section

open scoped BigOperators

namespace Cert.Lib

open Idealize.ShloMosaic Idealize.ShloMosaic.ValueIdx

/-- The dimension numbers of a gather of whole rows of `[N, D]` at row numbers `[E, 1]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row entry `e` of the row numbers reads: the entry as a signed integer, clamped into `[0, N − 1]`. -/
def rowOf {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, j)`: column `j` of the row that entry `e` names. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (rowOf hN idx e) j) := by
  unfold Host.gather
  congr 1
  funext a
  refine Fin.ext ?_
  match a with
  | ⟨0, _⟩ =>
    -- axis 0 is collapsed and named by the start index map: the clamped start alone
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx (ix2 e j) ⟨List.idxOf (0 : Fin 2) (rowGatherDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, and the result's coordinate on its own axis 1
    show (rowGatherDims N E D wf).start (ix2 e j) idx 1 + (rowGatherDims N E D wf).batchCoord (ix2 e j) 1
      + (rowGatherDims N E D wf).offCoord (ix2 e j) 1 = _
    have hne : (1 : Fin 2) ∉ [(0 : Fin 2)] := by decide
    have hstart : (rowGatherDims N E D wf).start (ix2 e j) idx 1 = 0 := by
      unfold GatherDims.start
      rw [dif_neg (show (1 : Fin 2) ∉ (rowGatherDims N E D wf).startIndexMap from hne)]
    have hk : (1 : Fin 2) ∈ (rowGatherDims N E D wf).sKept :=
      (GatherDims.mem_sKept _ _).mpr ⟨hne, List.not_mem_nil⟩
    have hoff : (rowGatherDims N E D wf).offCoord (ix2 e j) 1 = j.val := by
      unfold GatherDims.offCoord
      rw [dif_pos hk]
      rfl
    rw [hstart, GatherDims.batchCoord_eq_zero _ _ _ List.not_mem_nil, hoff]
    show 0 + 0 + j.val = j.val
    omega

/-- The dimension numbers of a scatter of whole rows `[E, D]` into `[N, D]` at row numbers `[E, 1]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-! The start and the window coordinate of update index `(e, k)` on the operand's two axes. -/

/-- On axis 0 the window starts at entry `e` of the row numbers, read signed. -/
private theorem start0 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  have hsi : (rowScatterDims N E D wf).siIdx (ix2 e k)
      ⟨List.idxOf (0 : Fin 2) (rowScatterDims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not named by the scatter-dims-to-operand-dims map: the window starts at 0. -/
private theorem start1 {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) :
    (rowScatterDims N E D wf).start (ix2 e k) idx (1 : Fin 2) = 0 := by
  have hne : (1 : Fin 2) ∉ [(0 : Fin 2)] := by decide
  unfold ScatterDims.start
  rw [dif_neg (show (1 : Fin 2) ∉ (rowScatterDims N E D wf).scatterDimsToOperandDims from hne)]

/-- Axis 0 is an inserted window axis: its window coordinate is 0. -/
private theorem window0 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (0 : Fin 2) = 0 := by
  have hne : (0 : Fin 2) ∉ (List.finRange 2).filter (· ∉ [(0 : Fin 2)]) := by decide
  unfold ScatterDims.window
  rw [dif_neg (show (0 : Fin 2) ∉ (rowScatterDims N E D wf).sKept from hne)]

/-- Axis 1 is the one kept axis: its window coordinate is the update's column. -/
private theorem window1 {N E D : Nat}
    (wf : ScatterDims.WF ⟨2, ![N, D]⟩ ⟨2, ![E, 1]⟩ ⟨2, ![E, D]⟩ [1] [0] [0] 1) (e : Fin E) (k : Fin D) :
    (rowScatterDims N E D wf).window (ix2 e k) (1 : Fin 2) = k.val := by
  have hmem : (1 : Fin 2) ∈ (List.finRange 2).filter (· ∉ [(0 : Fin 2)]) := by decide
  unfold ScatterDims.window
  rw [dif_pos (show (1 : Fin 2) ∈ (rowScatterDims N E D wf).sKept from hmem)]
  rfl

/-- The entries whose row number, read signed, is exactly `r`: the updates that land on row `r`. -/
def landing {N E w : Nat} (idx : IVec ⟨2, ![E, 1]⟩ w) (r : Fin N) : Finset (Fin E) :=
  Finset.univ.filter fun e => (idx (ix2 e (0 : Fin 1))).toInt = (r.val : Int)

/-- Update index `(e, k)` lands on operand index `(r, j)` exactly when entry `e`, read signed, is `r` and the
    columns agree: on axis 0 the result coordinate is the unclamped start, on axis 1 it is the update's column. -/
private theorem resultIdx_eq_some_iff {N E D w : Nat}
    (wf : ScatterDims.WF ⟨2, ![N, D]⟩ ⟨2, ![E, 1]⟩ ⟨2, ![E, D]⟩ [1] [0] [0] 1)
    (idx : IVec ⟨2, ![E, 1]⟩ w) (e : Fin E) (k : Fin D) (r : Fin N) (j : Fin D) :
    (rowScatterDims N E D wf).resultIdx? (ix2 e k) idx = some (ix2 r j)
      ↔ (idx (ix2 e (0 : Fin 1))).toInt = (r.val : Int) ∧ k = j := by
  unfold ScatterDims.resultIdx?
  constructor
  · intro h
    split at h
    · rename_i hall
      have hf := Option.some.inj h
      have h0 : ((rowScatterDims N E D wf).start (ix2 e k) idx (0 : Fin 2)
          + ((rowScatterDims N E D wf).window (ix2 e k) (0 : Fin 2) : Int)).toNat = r.val :=
        congrArg (fun f => (f (0 : Fin 2)).val) hf
      have h1 : ((rowScatterDims N E D wf).start (ix2 e k) idx (1 : Fin 2)
          + ((rowScatterDims N E D wf).window (ix2 e k) (1 : Fin 2) : Int)).toNat = j.val :=
        congrArg (fun f => (f (1 : Fin 2)).val) hf
      have a0 : 0 ≤ (rowScatterDims N E D wf).start (ix2 e k) idx (0 : Fin 2)
          + ((rowScatterDims N E D wf).window (ix2 e k) (0 : Fin 2) : Int) := (hall (0 : Fin 2)).1
      rw [start0, window0] at h0 a0
      rw [start1, window1] at h1
      exact ⟨by omega, Fin.ext (by omega)⟩
    · exact absurd h (by simp)
  · rintro ⟨ht, rfl⟩
    have hall : ∀ a, 0 ≤ (rowScatterDims N E D wf).start (ix2 e k) idx a + ((rowScatterDims N E D wf).window (ix2 e k) a : Int)
        ∧ (rowScatterDims N E D wf).start (ix2 e k) idx a + ((rowScatterDims N E D wf).window (ix2 e k) a : Int)
          < ((⟨2, ![N, D]⟩ : Shape).size a : Int) := by
      intro a
      match a with
      | ⟨0, _⟩ =>
        show 0 ≤ (rowScatterDims N E D wf).start (ix2 e k) idx (0 : Fin 2)
            + ((rowScatterDims N E D wf).window (ix2 e k) (0 : Fin 2) : Int)
          ∧ (rowScatterDims N E D wf).start (ix2 e k) idx (0 : Fin 2)
            + ((rowScatterDims N E D wf).window (ix2 e k) (0 : Fin 2) : Int) < (N : Int)
        rw [start0, window0, ht]
        have := r.isLt
        omega
      | ⟨1, _⟩ =>
        show 0 ≤ (rowScatterDims N E D wf).start (ix2 e k) idx (1 : Fin 2)
            + ((rowScatterDims N E D wf).window (ix2 e k) (1 : Fin 2) : Int)
          ∧ (rowScatterDims N E D wf).start (ix2 e k) idx (1 : Fin 2)
            + ((rowScatterDims N E D wf).window (ix2 e k) (1 : Fin 2) : Int) < (D : Int)
        rw [start1, window1]
        have := k.isLt
        omega
    rw [dif_pos hall]
    congr 1
    funext a
    refine Fin.ext ?_
    match a with
    | ⟨0, _⟩ =>
      show ((rowScatterDims N E D wf).start (ix2 e k) idx (0 : Fin 2)
          + ((rowScatterDims N E D wf).window (ix2 e k) (0 : Fin 2) : Int)).toNat = r.val
      rw [start0, window0, ht]
      omega
    | ⟨1, _⟩ =>
      show ((rowScatterDims N E D wf).start (ix2 e k) idx (1 : Fin 2)
          + ((rowScatterDims N E D wf).window (ix2 e k) (1 : Fin 2) : Int)).toNat = k.val
      rw [start1, window1]
      omega

/-- THE ACCUMULATING ROW SCATTER READ AT `(r, j)`, over the extended reals: the operand's entry plus column `j`
    of every update row landing on row `r`. -/
theorem scatterAdd_rows_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (r : Fin N) (j : Fin D) :
    Ideal.hostScatterAdd (rowScatterDims N E D wf) x idx upd (ix2 r j)
      = x (ix2 r j) + ∑ e ∈ landing idx r, upd (ix2 e j) := by
  unfold Ideal.hostScatterAdd
  congr 1
  -- the update indices landing on `(r, j)` are the `(e, j)` with `e` landing on row `r`: re-index by `e`
  have key : ∀ u : (⟨2, ![E, D]⟩ : Shape).Idx,
      (rowScatterDims N E D wf).resultIdx? u idx = some (ix2 r j)
        ↔ (idx (ix2 (u 0) (0 : Fin 1))).toInt = (r.val : Int) ∧ u 1 = j := by
    intro u
    conv_lhs => rw [eq_ix2 u]
    exact resultIdx_eq_some_iff wf idx (u 0) (u 1) r j
  refine Finset.sum_nbij' (fun u => u 0) (fun e => ix2 e j) ?_ ?_ ?_ ?_ ?_
  · intro u hu
    have h := (key u).mp (Finset.mem_filter.mp hu).2
    exact Finset.mem_filter.mpr ⟨Finset.mem_univ _, h.1⟩
  · intro e he
    have h := (Finset.mem_filter.mp he).2
    exact Finset.mem_filter.mpr ⟨Finset.mem_univ _, (key (ix2 e j)).mpr ⟨h, rfl⟩⟩
  · intro u hu
    have h := (key u).mp (Finset.mem_filter.mp hu).2
    rw [← h.2]
    exact (eq_ix2 u).symm
  · intro e _
    rfl
  · intro u hu
    have h := (key u).mp (Finset.mem_filter.mp hu).2
    rw [← h.2]
    exact congrArg upd (eq_ix2 u)

end Cert.Lib

end
-- ==== Proof.Mean2.lean ====
/-
  The second layer's neighbour mean: projecting every node's hidden row to 32 channels first and averaging the
  projected rows of the in-neighbours gives what the reference computes by averaging the 64-wide hidden rows and
  projecting the mean. For node `r` with in-edges `P` (the edges landing on `r`), source rows `g e` and clipped
  in-degree `c`:  (0 + ∑ e ∈ P, ∑ k, h (g e) k · w k j) · (1 / c) = ∑ k, ((0 + ∑ e ∈ P, h (g e) k) / c) · w k j.
  It is the distributive law and an exchange of two finite sums, which hold because every hidden entry and every
  weight is a real number and `c` is a nonzero real. Neither the row an edge's gather reads nor the set of edges
  landing on a node depends on the width of the rows.
-/
import proofs.«166322_j5231270167342_2_alg».proof.Proof.Count
import proofs.«166322_j5231270167342_2_alg».proof.Proof.Law
import proofs.«166322_j5231270167342_2_alg».proof.Proof.LibRows
import proofs.«166322_j5231270167342_2_alg».proof.Proof.Spec
import Idealize.ShloMosaic.Lib.Pipeline.Value
import Idealize.ShloMosaic.Lib.ValueIdx

noncomputable section

open scoped BigOperators

namespace Cert.Mean2

open Idealize.ShloMosaic Idealize.ShloMosaic.ValueIdx
open Cert.ReferenceIdeal.Read (val_main_v19 val_main_v31 val_main_v55 val_main_v56)

variable [Cert.ReferenceIdeal.Facts]

/-- The reference's accumulating scatter of gathered 64-wide rows, read at (r, k). -/
private theorem ref_sum (H Z : (⟨2, ![50000, 64]⟩ : Shape).Idx → EReal) (I44 I41 : IVec ⟨2, ![1600000, 1]⟩ 32)
    (r : Fin 50000) (k : Fin 64) :
    Host.scatterAdd (F := Ideal) (φ := .f32) Cert.ReferenceIdeal.scatter_S50000x64_S1600000x1_S1600000x64_1_0_0_1 Z I44
      (Host.gather Cert.ReferenceIdeal.gather_S50000x64_S1600000x1_S1600000x64_1_0_n_n_0_1_164 H I41) (ix2 r k)
      = Z (ix2 r k) + ∑ e ∈ Cert.Lib.landing I44 r, H (ix2 (Cert.Lib.rowOf (N := 50000) (by decide) I41 e) k) := by
  have wfS : ScatterDims.WF ⟨2, ![50000, 64]⟩ ⟨2, ![1600000, 1]⟩ ⟨2, ![1600000, 64]⟩ [1] [0] [0] 1 :=
    Cert.ReferenceIdeal.scatter_S50000x64_S1600000x1_S1600000x64_1_0_0_1.wf
  have wfG : GatherDims.WF ⟨2, ![50000, 64]⟩ ⟨2, ![1600000, 1]⟩ ⟨2, ![1600000, 64]⟩ [1] [0] [] [0] [] 1 ![1, 64] :=
    Cert.ReferenceIdeal.gather_S50000x64_S1600000x1_S1600000x64_1_0_n_n_0_1_164.wf
  have hd : Cert.ReferenceIdeal.scatter_S50000x64_S1600000x1_S1600000x64_1_0_0_1
      = Cert.Lib.rowScatterDims 50000 1600000 64 wfS := rfl
  have hg : Cert.ReferenceIdeal.gather_S50000x64_S1600000x1_S1600000x64_1_0_n_n_0_1_164
      = Cert.Lib.rowGatherDims 50000 1600000 64 wfG := rfl
  show Ideal.hostScatterAdd _ Z I44 _ (ix2 r k) = _
  rw [hd, hg, Cert.Lib.scatterAdd_rows_apply]
  refine congrArg (Z (ix2 r k) + ·) (Finset.sum_congr rfl fun e _ => ?_)
  exact Cert.Lib.gather_rows_apply _ _ H I41 e k

open Cert.ReferenceIdeal.Read in
/-- The second clipped in-degree is the first: the same operations on the same arguments. -/
private theorem v51_eq_v19 (x1 : (⟨Cert.ReferenceIdeal.S2x1600000, .i32⟩ : BufTy).Contents (Elt Ideal)) :
    val_main_v51 (F := Ideal) x1 = val_main_v19 (F := Ideal) x1 := by
  unfold val_main_v51 val_main_v19 val_main_v49 val_main_v17 val_main_v50 val_main_v18 val_main_v48 val_main_v16
    val_main_v47 val_main_v15 val_main_v46 val_main_v14 val_main_v35 val_main_v3 val_main_v34 val_main_v2
    val_main_cst_9 val_main_cst_3 val_main_cst_8 val_main_cst_2 val_main_cst_7 val_main_cst_1
  rfl

/-- The kernel's accumulating scatter of gathered 32-wide rows (widened, which changes nothing on the extended
    reals), read at (r, j). -/
private theorem ker_sum (p Z : (⟨2, ![50000, 32]⟩ : Shape).Idx → EReal) (I44 I41 : IVec ⟨2, ![1600000, 1]⟩ 32)
    (hlt : FTy.bf16.bits < FTy.f32.bits) (r : Fin 50000) (j : Fin 32) :
    Host.scatterAdd (F := Ideal) (φ := .f32) Cert.KernelIdeal.scatter_S50000x32_S1600000x1_S1600000x32_1_0_0_1 Z I44
      (extf (F := Ideal) .f32 (Host.gather Cert.KernelIdeal.gather_S50000x32_S1600000x1_S1600000x32_1_0_n_n_0_1_132 p I41) hlt)
      (ix2 r j)
      = Z (ix2 r j) + ∑ e ∈ Cert.Lib.landing I44 r, p (ix2 (Cert.Lib.rowOf (N := 50000) (by decide) I41 e) j) := by
  have wfS : ScatterDims.WF ⟨2, ![50000, 32]⟩ ⟨2, ![1600000, 1]⟩ ⟨2, ![1600000, 32]⟩ [1] [0] [0] 1 :=
    Cert.KernelIdeal.scatter_S50000x32_S1600000x1_S1600000x32_1_0_0_1.wf
  have wfG : GatherDims.WF ⟨2, ![50000, 32]⟩ ⟨2, ![1600000, 1]⟩ ⟨2, ![1600000, 32]⟩ [1] [0] [] [0] [] 1 ![1, 32] :=
    Cert.KernelIdeal.gather_S50000x32_S1600000x1_S1600000x32_1_0_n_n_0_1_132.wf
  have hd : Cert.KernelIdeal.scatter_S50000x32_S1600000x1_S1600000x32_1_0_0_1
      = Cert.Lib.rowScatterDims 50000 1600000 32 wfS := rfl
  have hg : Cert.KernelIdeal.gather_S50000x32_S1600000x1_S1600000x32_1_0_n_n_0_1_132
      = Cert.Lib.rowGatherDims 50000 1600000 32 wfG := rfl
  show Ideal.hostScatterAdd _ Z I44 (Host.gather _ p I41) (ix2 r j) = _
  rw [hd, hg, Cert.Lib.scatterAdd_rows_apply]
  refine congrArg (Z (ix2 r j) + ·) (Finset.sum_congr rfl fun e _ => ?_)
  exact Cert.Lib.gather_rows_apply _ _ p I41 e j

open Cert.ReferenceIdeal.Read in
/-- The clipped in-degree broadcast over the 64 columns, read at (r, k). -/
private theorem v53_at (x1 : (⟨Cert.ReferenceIdeal.S2x1600000, .i32⟩ : BufTy).Contents (Elt Ideal)) (r : Fin 50000) (k : Fin 64) :
    val_main_v53 (F := Ideal) x1 (ix2 r k) = val_main_v19 (F := Ideal) x1 (ix1 r) := by
  rw [val_main_v53_apply, val_main_v52_apply, v51_eq_v19]
  refine congrArg (val_main_v19 (F := Ideal) x1) (funext fun a => ?_)
  match a with
  | ⟨0, _⟩ => rfl

open Cert.ReferenceIdeal.Read in
/-- The reference's neighbour sum of hidden rows, read at (r, k). -/
private theorem v45_at (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (r : Fin 50000) (k : Fin 64) :
    val_main_v45 (F := Ideal) x0 x1 x2 x3 x4 (ix2 r k)
      = (0 : EReal) + ∑ e ∈ Cert.Lib.landing (val_main_v44 (F := Ideal) x1) r,
          val_main_v31 (F := Ideal) x0 x1 x2 x3 x4 (ix2 (Cert.Lib.rowOf (N := 50000) (by decide) (val_main_v41 (F := Ideal) x1) e) k) := by
  unfold val_main_v45 val_main_v42
  refine (ref_sum _ _ _ _ r k).trans ?_
  rw [val_main_v43_apply, val_main_cst_6_apply, Ideal.ofBits_def, Ideal.ofBits_zero_f32]

open Cert.ReferenceIdeal.Read in
/-- The reference's projected mean, read at (r, j). -/
private theorem rhs_at (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S32x64, .f32⟩ : BufTy).Contents (Elt Ideal))
    (r : Fin 50000) (j : Fin 32) :
    val_main_v56 (F := Ideal) x0 x1 x2 x3 x4 x5 (ix2 r j)
      = ∑ k : Fin 64, Ideal.div ((0 : EReal) + ∑ e ∈ Cert.Lib.landing (val_main_v44 (F := Ideal) x1) r,
          val_main_v31 (F := Ideal) x0 x1 x2 x3 x4 (ix2 (Cert.Lib.rowOf (N := 50000) (by decide) (val_main_v41 (F := Ideal) x1) e) k))
          (val_main_v19 (F := Ideal) x1 (ix1 r)) * val_main_v55 (F := Ideal) x5 (ix2 k j) := by
  rw [val_main_v56_apply]
  refine Finset.sum_congr rfl fun k _ => ?_
  have hl : lidx_main_v56 (ix2 r j) k = ix2 r k := funext fun a => match a with
    | ⟨0, _⟩ => rfl
    | ⟨1, _⟩ => rfl
  have hr : ridx_main_v56 (ix2 r j) k = ix2 k j := funext fun a => match a with
    | ⟨0, _⟩ => rfl
    | ⟨1, _⟩ => rfl
  rw [hl, hr, val_main_v54_apply, Ideal.hostDivf_def, v53_at, v45_at]

open Cert.ReferenceIdeal.Read in
/-- The kernel's mean of already projected rows `p`, read at (r, j). -/
private theorem lhs_at (x1 : (⟨Cert.ReferenceIdeal.S2x1600000, .i32⟩ : BufTy).Contents (Elt Ideal))
    (p : (⟨2, ![50000, 32]⟩ : Shape).Idx → EReal) (r : Fin 50000) (j : Fin 32) :
    Cert.KernelIdeal.KHost.agg2 x1 p (ix2 r j)
      = ((0 : EReal) + ∑ e ∈ Cert.Lib.landing (val_main_v44 (F := Ideal) x1) r,
          p (ix2 (Cert.Lib.rowOf (N := 50000) (by decide) (val_main_v41 (F := Ideal) x1) e) j))
        * Ideal.div 1 (val_main_v19 (F := Ideal) x1 (ix1 r)) := by
  unfold Cert.KernelIdeal.KHost.agg2
  rw [mulf_apply]
  refine congrArg₂ (· * ·) ?_ ?_
  · refine (ker_sum _ _ _ _ _ r j).trans ?_
    rw [broadcastInDim_apply _ _ _ _ (fun a => a.elim0) (fun a => a.elim0), constant_apply, Ideal.ofBits_zero_f32]
  · rw [broadcastInDim_apply _ _ _ _ (ix2 r (0 : Fin 1)) (fun a => match a with
      | ⟨0, _⟩ => by show r.val = if (50000 : Nat) = 1 then 0 else r.val; rw [if_neg (by decide)]
      | ⟨1, _⟩ => by show 0 = if (1 : Nat) = 1 then 0 else j.val; rw [if_pos rfl])]
    exact Cert.Count.invCol_apply x1 r 0

/-- THE SECOND MEAN: the mean of the projected hidden rows is the projection of the mean hidden row. -/
theorem mean2_eq (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (x5 : (⟨Cert.ReferenceIdeal.S32x64, .f32⟩ : BufTy).Contents (Elt Ideal))
    (h31 : ∀ i, Cert.Law.IsReal (val_main_v31 (F := Ideal) x0 x1 x2 x3 x4 i)) (h5 : ∀ i, Cert.Law.IsReal (x5 i)) :
    Cert.KernelIdeal.KHost.agg2 x1 (Cert.Sage.proj (val_main_v31 (F := Ideal) x0 x1 x2 x3 x4) (val_main_v55 (F := Ideal) x5))
      = val_main_v56 (F := Ideal) x0 x1 x2 x3 x4 x5 := by
  funext i
  obtain ⟨r, j, rfl⟩ : ∃ r j, i = ix2 r j := ⟨i 0, i 1, eq_ix2 i⟩
  -- the clipped in-degree of node r is a nonzero real c
  obtain ⟨c, hc, hcr⟩ := Cert.Count.count_real x1 r
  have hW : ∀ i, Cert.Law.IsReal (val_main_v55 (F := Ideal) x5 i) := fun i => by
    rw [Cert.ReferenceIdeal.Read.val_main_v55_apply]; exact h5 _
  rw [lhs_at, rhs_at, hcr]
  -- both sides are now sums over the same edges of the same rows; only real entries and the nonzero real c remain
  generalize val_main_v31 (F := Ideal) x0 x1 x2 x3 x4 = H at h31 ⊢
  generalize val_main_v55 (F := Ideal) x5 = W at hW ⊢
  generalize Cert.ReferenceIdeal.Read.val_main_v44 (F := Ideal) x1 = I44
  generalize Cert.ReferenceIdeal.Read.val_main_v41 (F := Ideal) x1 = I41
  exact Cert.Law.mean_proj_comm (Cert.Lib.landing I44 r)
    (fun e k => H (ix2 (Cert.Lib.rowOf (N := 50000) (by decide) I41 e) k)) (fun k => W (ix2 k j)) hc
    (fun e k => h31 _) (fun k => hW _)

end Cert.Mean2

end
-- ==== Proof.Real1.lean ====
/-
  The first layer's activation of finite inputs is finite: every entry is a real number.

  An entry of the first dense stage is a maximum with zero of sums of products of entries of its five arrays, so it
  is real when they all are; the neighbour mean's entries are real because a neighbour sum is zero plus finitely
  many gathered feature entries, each real, divided by the clipped in-degree, a nonzero real.
-/
import proofs.«166322_j5231270167342_2_alg».proof.Proof.Count
import proofs.«166322_j5231270167342_2_alg».proof.Proof.Law
import proofs.«166322_j5231270167342_2_alg».proof.Proof.Spec
import proofs.«166322_j5231270167342_2_alg».proof.Proof.RefSpec
import Idealize.ShloMosaic.Lib.Pipeline.Value
import Idealize.ShloMosaic.Lib.ValueIdx

noncomputable section

open scoped BigOperators

namespace Cert.Real1

open Idealize.ShloMosaic Idealize.ShloMosaic.ValueIdx
open Cert.ReferenceIdeal.Read (val_main_v31)

variable [Cert.ReferenceIdeal.Facts]

/-- An accumulating scatter of real updates into a real array is real: each entry is the array's entry plus a finite
    sum of update entries. -/
private theorem scatterAdd_real {s si su : Shape} {φ : FTy} {w : Nat} (d : ScatterDims s si su) (x : FVec Ideal s φ)
    (idx : IVec si w) (upd : FVec Ideal su φ) (hx : ∀ i, Cert.Law.IsReal (x i)) (hu : ∀ j, Cert.Law.IsReal (upd j)) (i : s.Idx) :
    Cert.Law.IsReal (Host.scatterAdd d x idx upd i) := by
  show Cert.Law.IsReal (Ideal.hostScatterAdd d x idx upd i)
  unfold Ideal.hostScatterAdd
  exact (hx i).add (Cert.Law.IsReal.sum _ _ fun j _ => hu j)

/-- Every entry of a gather is an entry of its operand, so a gather of a real array is real. -/
private theorem gather_real {s si t : Shape} {w : Nat} (d : GatherDims s si t) (x : s.Idx → EReal) (idx : IVec si w)
    (hx : ∀ i, Cert.Law.IsReal (x i)) (j : t.Idx) : Cert.Law.IsReal (Host.gather d x idx j) := by
  unfold Host.gather
  exact hx _

/-- The first dense stage of real arrays is real. -/
theorem dense1_real (agg x : Cert.Sage.SNx64.Idx → EReal) (wl : Cert.Sage.S64x64.Idx → EReal) (b : Cert.Sage.S1x64.Idx → EReal)
    (wr : Cert.Sage.S64x64.Idx → EReal) (hagg : ∀ i, Cert.Law.IsReal (agg i)) (hx : ∀ i, Cert.Law.IsReal (x i))
    (hwl : ∀ i, Cert.Law.IsReal (wl i)) (hb : ∀ i, Cert.Law.IsReal (b i)) (hwr : ∀ i, Cert.Law.IsReal (wr i)) :
    ∀ i, Cert.Law.IsReal (Cert.Sage.dense1 agg x wl b wr i) := by
  intro i
  unfold Cert.Sage.dense1 Cert.Sage.dense1At
  refine Cert.Law.IsReal.max ?_ Cert.Law.isReal_zero
  refine Cert.Law.IsReal.add (Cert.Law.IsReal.add ?_ (hb _)) ?_
  · exact Cert.Law.IsReal.sum _ _ fun k _ => (hagg _).mul (hwl _)
  · exact Cert.Law.IsReal.sum _ _ fun k _ => (hx _).mul (hwr _)

/-- The reference's first-layer activation of finite inputs is real, entry by entry. -/
theorem hidden1_real (x0 : (⟨Cert.ReferenceIdeal.S50000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal))
    (x4 : (⟨Cert.ReferenceIdeal.S64x64, .f32⟩ : BufTy).Contents (Elt Ideal)) (h0 : ∀ i, Cert.Law.IsReal (x0 i)) (h2 : ∀ i, Cert.Law.IsReal (x2 i))
    (h3 : ∀ i, Cert.Law.IsReal (x3 i)) (h4 : ∀ i, Cert.Law.IsReal (x4 i)) :
    ∀ i, Cert.Law.IsReal (val_main_v31 (F := Ideal) x0 x1 x2 x3 x4 i) := by
  rw [Cert.ReferenceIdeal.RefSpec.hidden1_eq]
  refine dense1_real _ _ _ _ _ ?_ h0 ?_ ?_ ?_
  · -- the neighbour mean: a neighbour sum over the clipped in-degree
    intro i
    rw [Cert.ReferenceIdeal.Read.val_main_v22_apply, Cert.ReferenceIdeal.Read.val_main_v21_apply,
      Cert.ReferenceIdeal.Read.val_main_v20_apply]
    obtain ⟨cr, hc, e⟩ := Cert.Count.count_real x1 (⟨(i 0).val, (i 0).isLt⟩ : Fin 50000)
    have hidx : Cert.ReferenceIdeal.Read.idx_main_v20 (Cert.ReferenceIdeal.Read.idx_main_v21 i)
        = ix1 (⟨(i 0).val, (i 0).isLt⟩ : Fin 50000) := funext fun a => by
      match a with | ⟨0, _⟩ => rfl
    rw [hidx, e]
    show Cert.Law.IsReal (Ideal.div (Cert.ReferenceIdeal.Read.val_main_v13 (F := Ideal) x0 x1 i) (cr : EReal))
    refine Cert.Law.IsReal.div ?_ hc
    -- the neighbour sum: zero plus finitely many gathered feature entries
    have hzero : ∀ i, Cert.Law.IsReal (Cert.ReferenceIdeal.Read.val_main_v11 (F := Ideal) i) := by
      intro i
      rw [Cert.ReferenceIdeal.Read.val_main_v11_apply, Cert.ReferenceIdeal.Read.val_main_cst_apply]
      show Cert.Law.IsReal (Ideal.ofBits .f32 0x00000000#32)
      rw [Ideal.ofBits_zero_f32]
      exact Cert.Law.isReal_zero
    have hgath : ∀ j, Cert.Law.IsReal (Cert.ReferenceIdeal.Read.val_main_v10 (F := Ideal) x0 x1 j) :=
      fun j => gather_real _ x0 _ h0 j
    exact scatterAdd_real _ _ _ _ hzero hgath i
  · intro i
    rw [Cert.ReferenceIdeal.Read.val_main_v23_apply]
    exact h2 _
  · intro i
    rw [Cert.ReferenceIdeal.Read.val_main_v25_apply]
    exact h3 _
  · intro i
    rw [Cert.ReferenceIdeal.Read.val_main_v28_apply]
    exact h4 _

end Cert.Real1

end
-- ==== Proof.KValue.lean ====
/-
  What the idealized kernel leaves in its result buffer is the reference's output, as one function of the arguments.

  The result buffer is the second region's output array: block by block the second dense stage of what that region
  finds. It finds the projected neighbour mean, computed by the host from the first region's 32-wide output, and the
  first region's 64-wide output: the first dense stage of the first neighbour mean and the features. The first mean
  is the reference's (a product with a reciprocal against a quotient); so the first region's hidden rows are the
  reference's first activation, its projected rows their product with the transposed second weight, and the mean of
  those the reference's projected mean of hidden rows — the one step that needs every input finite. What is left is
  the reference's own output formula.
-/
import proofs.«166322_j5231270167342_2_alg».proof.Proof.KRun
import proofs.«166322_j5231270167342_2_alg».proof.Proof.KHost
import proofs.«166322_j5231270167342_2_alg».proof.Proof.Region0
import proofs.«166322_j5231270167342_2_alg».proof.Proof.Region1
import proofs.«166322_j5231270167342_2_alg».proof.Proof.RefSpec
import proofs.«166322_j5231270167342_2_alg».proof.Proof.Mean1
import proofs.«166322_j5231270167342_2_alg».proof.Proof.Mean2
import proofs.«166322_j5231270167342_2_alg».proof.Proof.Real1

set_option maxRecDepth 16384

noncomputable section

namespace Cert.KernelIdeal.KValue

open Cert.KernelIdeal Cert.KernelIdeal.Gen Idealize.ShloMosaic Idealize.ShloMosaic.TcCoe Idealize.SL.Sem
open Cert.KernelIdeal.KHost
open Cert.ReferenceIdeal.Read (val_main_v22 val_main_v23 val_main_v25 val_main_v28 val_main_v31 val_main_v55 val_main_v56 val_main_v57
  val_main_v60 val_main_v64 val_main_v66 val_main_v68)

variable [Cert.ReferenceIdeal.Facts]
variable (m : (ℓ : Loc nD τ sig) → Buf (Elt Ideal) ℓ) (ρ : Dev nD → PrngReg)

/-- The first region's 64-wide output array is the reference's first activation. -/
theorem hidden_eq (c : Dev nD) :
    W2 (F := Ideal) m ρ c (Proc.devRef .tc main_v34_0)
      = val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h := (W2_arr m ρ c 6).trans (Cert.KernelIdeal.Region0.arr_h (V1 m ρ) c)
  rw [V1_v26, V1_arg0, V1_v28, V1_v33, V1_v30, Cert.Mean1.mean1_eq, Cert.Mean1.bias1_eq] at h
  exact h.trans (Cert.ReferenceIdeal.RefSpec.hidden1_eq _ _ _ _ _).symm

/-- The first region's 32-wide output array is that activation times the transposed second weight. -/
theorem projected_eq (c : Dev nD) :
    W2 (F := Ideal) m ρ c (Proc.devRef .tc main_v34_1)
      = Cert.Sage.proj (val_main_v31 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (val_main_v55 (F := Ideal) (m ((c.tc : Thread nD τ).loc main_arg5))) := by
  have h := (W2_arr m ρ c 7).trans (Cert.KernelIdeal.Region0.arr_m (V1 m ρ) c)
  rw [V1_v26, V1_arg0, V1_v28, V1_v33, V1_v30, V1_v32, Cert.Mean1.mean1_eq, Cert.Mean1.bias1_eq,
    ← Cert.ReferenceIdeal.RefSpec.hidden1_eq] at h
  exact h

/-- THE KERNEL'S RESULT: for finite inputs the result buffer after the run holds the reference's output. -/
theorem out_eq (c : Dev nD)
    (h0 : ∀ i, Cert.Law.IsReal ((m ((c.tc : Thread nD τ).loc main_arg0)) i)) (h2 : ∀ i, Cert.Law.IsReal ((m ((c.tc : Thread nD τ).loc main_arg2)) i)) (h3 : ∀ i, Cert.Law.IsReal ((m ((c.tc : Thread nD τ).loc main_arg3)) i))
    (h4 : ∀ i, Cert.Law.IsReal ((m ((c.tc : Thread nD τ).loc main_arg4)) i)) (h5 : ∀ i, Cert.Law.IsReal ((m ((c.tc : Thread nD τ).loc main_arg5)) i)) :
    W4 (F := Ideal) m ρ c (Proc.devRef .tc main_v54)
      = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h := (W4_arr m ρ c 6).trans (Cert.KernelIdeal.Region1.arr_out (V3 m ρ) c)
  rw [V3_v47, V3_v34_0, V3_v49, V3_v50, V3_v52, V3_v53, hidden_eq, projected_eq, Cert.Mean1.bias2_eq, Cert.Mean1.bias3_eq,
    Cert.Mean2.mean2_eq _ _ _ _ _ _ (Cert.Real1.hidden1_real _ _ _ _ _ h0 h2 h3 h4) h5] at h
  exact h.trans (Cert.ReferenceIdeal.RefSpec.out_eq _ _ _ _ _ _ _ _ _ _).symm

end Cert.KernelIdeal.KValue

end
-- ==== Proof.Finite.lean ====
/-
  From the precondition "every float input is finite" to "every entry of every float input is a real number".

  The precondition function takes, for each float argument a, the entrywise comparison |a| < +∞, folds it by
  conjunction over all axes, and takes the conjunction of the nine folds. If the result is the bit 1, each fold
  is 1, so each entrywise comparison is 1, so |a i| < ⊤ in the extended reals; an extended real whose absolute
  value is below ⊤ is neither ⊥ nor ⊤, hence a real number.
-/
import proofs.«166322_j5231270167342_2_alg».proof.Pre_finite_inputs
import proofs.«166322_j5231270167342_2_alg».proof.Proof.Law
import Idealize.ShloMosaic.Lib.ReduceAll
import Idealize.ShloMosaic.Lib.ValueIdx
import Idealize.ShloMosaic.PureOps.Ideal

noncomputable section

namespace Cert.Finite

open Idealize.ShloMosaic
open Cert.Pre_finite_inputs

/-- The shape of rank zero has exactly one index. -/
instance : Subsingleton S_.Idx := ⟨fun a b => funext fun d => d.elim0⟩

/-- An extended real whose absolute value max x (-x) is strictly below ⊤ is a real number. -/
theorem isReal_of_abs_lt_top (x : EReal) (h : max x (-x) < ⊤) : Cert.Law.IsReal x := by
  induction x using EReal.rec with
  | bot =>
    -- -⊥ = ⊤, so the maximum is ⊤, which is not below ⊤
    rw [EReal.neg_bot, max_eq_right bot_le] at h
    exact absurd h (lt_irrefl _)
  | coe r => exact ⟨r, rfl⟩
  | top =>
    -- the maximum of ⊤ and anything is ⊤
    rw [max_eq_left le_top] at h
    exact absurd h (lt_irrefl _)

/-- The bit pattern 0x7F800000 of the 32-bit format denotes +∞. -/
theorem inf_bits : Ideal.ofBits .f32 0x7F800000#32 = (⊤ : EReal) := by
  simp [Ideal.ofBits, Ideal.ieee]

/-- One entry: if the comparison |x| < +∞ answers the bit 1, then x is a real number. -/
theorem isReal_of_cmp (x : Ideal .f32)
    (h : FloatOps.cmpf (F := Ideal) .olt (FloatOps.hostAbsf x) (FloatOps.ofBits .f32 0x7F800000#32) = 1#1) :
    Cert.Law.IsReal x := by
  -- the comparison is the bit of the decision max x (-x) < ofBits …
  have h1 : BitVec.ofBool (decide (max x (-x) < Ideal.ofBits .f32 0x7F800000#32)) = 1#1 := h
  rw [inf_bits] at h1
  by_cases hlt : max x (-x) < (⊤ : EReal)
  · exact isReal_of_abs_lt_top x hlt
  · rw [decide_eq_false hlt] at h1
    exact absurd h1 (by decide)

/-- One argument: if the conjunction over all axes of the entrywise comparison |a| < +∞ is 1, every entry of a is real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi
          (cmpf .olt (Host.absf a) (broadcastInDim s ![] hb (constant (F := Ideal) S_ .f32 0x7F800000#32)))
          (constantI S_ 1 1#1) hr hu ValueIdx.ix0 = 1#1)
    (i : s.Idx) : Cert.Law.IsReal (a i) :=
  -- a conjunction over all entries that is 1 has a 1 at every entry
  isReal_of_cmp (a i) (Host.reduce_andi_all _ _ hr hu ValueIdx.ix0 h i)

theorem of_pre [Cert.Pre_finite_inputs.Facts]
    (a0 : FVec Ideal S50000x64 .f32) (a1 : IVec S2x1600000 32) (a2 : FVec Ideal S64x64 .f32) (a3 : FVec Ideal S64 .f32)
    (a4 : FVec Ideal S64x64 .f32) (a5 : FVec Ideal S32x64 .f32) (a6 : FVec Ideal S32 .f32) (a7 : FVec Ideal S32x64 .f32)
    (a8 : FVec Ideal S1x32 .f32) (a9 : FVec Ideal S1 .f32)
    (h : Cert.Pre_finite_inputs.fn (F := Ideal) a0 a1 a2 a3 a4 a5 a6 a7 a8 a9 = (fun _ => 1#1)) :
    (∀ i, Cert.Law.IsReal (a0 i)) ∧ (∀ i, Cert.Law.IsReal (a2 i)) ∧ (∀ i, Cert.Law.IsReal (a3 i)) ∧ (∀ i, Cert.Law.IsReal (a4 i))
      ∧ (∀ i, Cert.Law.IsReal (a5 i)) ∧ (∀ i, Cert.Law.IsReal (a6 i)) ∧ (∀ i, Cert.Law.IsReal (a7 i))
      ∧ (∀ i, Cert.Law.IsReal (a8 i)) ∧ (∀ i, Cert.Law.IsReal (a9 i)) := by
  -- the value of the function at the one index of the rank-zero shape
  have h0 := congrFun h ValueIdx.ix0
  dsimp only [fn, fn_part1, fn_part2, andi] at h0
  -- a conjunction of bits is 1 exactly when both are
  simp only [IntOp.andi_eq_one] at h0
  obtain ⟨⟨⟨⟨⟨⟨⟨⟨h0', h2'⟩, h3'⟩, h4'⟩, h5'⟩, h6'⟩, h7'⟩, h8'⟩, h9'⟩ := h0
  exact ⟨all_real a0 _ _ _ h0', all_real a2 _ _ _ h2', all_real a3 _ _ _ h3', all_real a4 _ _ _ h4',
    all_real a5 _ _ _ h5', all_real a6 _ _ _ h6', all_real a7 _ _ _ h7', all_real a8 _ _ _ h8', all_real a9 _ _ _ h9'⟩

end Cert.Finite

end
-- ==== Proof.lean ====
/-
  A two-layer neighbour-mean graph network with a linear read-out: the tiled kernel program against the plain
  reference, over the extended reals.

  Both programs compute, for every node, the mean of the feature rows of its in-neighbours (gather the source rows of
  the edges, add them up at the destination rows, divide by the in-degree clipped below at one), pass the mean and the
  node's own row through two weight matrices, add a bias and clip at zero; then the same again one layer up, and a
  linear read-out. They differ in two places. The kernel multiplies by the reciprocal of the clipped in-degree where
  the reference divides by it: the same on every extended real, the in-degree being a nonzero real. And in the second
  layer the kernel projects every hidden row to 32 channels BEFORE averaging over the in-neighbours, where the
  reference averages the 64-wide hidden rows and projects the mean: equal by the distributive law and an exchange of
  finite sums, which hold because, the inputs being finite, every hidden entry and every weight is a real number.
  Changes of float format are the identity on the extended reals, and a matrix product is the same sum in both
  programs.

  The frames of the two kernel programs are the launch of their four segments (host operations, region, host
  operations, region); the reference's frame is its run with the result forgotten; the idealization rewrote nothing.
-/
import proofs.«166322_j5231270167342_2_alg».proof.Defs
import proofs.«166322_j5231270167342_2_alg».proof.Proof.Gen.Kernel
import proofs.«166322_j5231270167342_2_alg».proof.Proof.KernelFrameP
import proofs.«166322_j5231270167342_2_alg».proof.Proof.Gen.KernelIdeal
import proofs.«166322_j5231270167342_2_alg».proof.Proof.KernelIdealFrameP
import proofs.«166322_j5231270167342_2_alg».proof.Proof.Gen.ReferenceIdeal
import proofs.«166322_j5231270167342_2_alg».proof.Proof.Gen.Pre_finite_inputs
import proofs.«166322_j5231270167342_2_alg».proof.Proof.Gen.ReferenceIdeal.Read
import proofs.«166322_j5231270167342_2_alg».proof.Proof.KRun
import proofs.«166322_j5231270167342_2_alg».proof.Proof.KValue
import proofs.«166322_j5231270167342_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the reference's output formula of the arguments
    in their result buffers: the kernel by the chain of its two regions read back to the arguments, the reference
    by its run. -/
theorem algebraic : Cert.algebraic_KernelIdeal_ReferenceIdeal := by
  intro m ρ m' ρ' hpre hagree
  refine ⟨fun c => Cert.ReferenceIdeal.Read.val_main_v68 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩) (Cert.KernelIdeal.KRun.run_out (F := Ideal) m ρ)
    obtain ⟨h0, h2, h3, h4, h5, -⟩ := Cert.Finite.of_pre _ _ _ _ _ _ _ _ _ _ (hpre c)
    exact Cert.KernelIdeal.KValue.out_eq m ρ c h0 h2 h3 h4 h5
  · refine (θ_run Cert.ReferenceIdeal.defs _ _).mono (fun r h c => ⟨(h c).1.trans ?_, (h c).2⟩) (Cert.ReferenceIdeal.Value.run (F := Ideal) m' ρ')
    rw [Cert.ReferenceIdeal.Read.val_main_v68_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1,
      (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
